-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x2048x2048 : Shape := ⟨3, ![4, 2048, 2048]⟩
abbrev S4x2048 : Shape := ⟨2, ![4, 2048]⟩
abbrev S1024x2048 : Shape := ⟨2, ![1024, 2048]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x2048 .f32) (main_arg5 : FVec F S1024 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16384x1024 .f32) (main_arg1 : FVec F S16384x1024 .f32) (main_arg2 : FVec F S4x2048x2048 .f32) (main_arg3 : FVec F S4x2048 .f32) (main_arg4 : FVec F S1024x2048 .f32) (main_arg5 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S4x2048x2048 .f32 := Host.absf main_arg2
  let main_cst_2 : FVec F S_ .f32 := constant S_ .f32 0x7F800000#32
  let main_v10 : FVec F S4x2048x2048 .f32 := broadcastInDim S4x2048x2048 ![] bcast_S_S4x2048x2048 main_cst_2
  let main_v11 : IVec S4x2048x2048 1 := cmpf .olt main_v9 main_v10
  let main_c_3 : IVec S_ 1 := constantI S_ 1 1#1
  let main_v12 : IVec S_ 1 := (fun x v => Host.reduce IntOp.andi x v reducesTo_S4x2048x2048_S_d0_1_2 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_arg5 main_v13 main_v16
-- ==== Kernel.lean ====
abbrev S16384x1024 : Shape := ⟨2, ![16384, 1024]⟩
abbrev S4x2048x2048 : Shape := ⟨3, ![4, 2048, 2048]⟩
abbrev S4x2048 : Shape := ⟨2, ![4, 2048]⟩
abbrev S1024x2048 : Shape := ⟨2, ![1024, 2048]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x2048x2048, .f32⟩
  | .hbm, ⟨3, _⟩ => ⟨S4x2048, .f32⟩
  | .hbm, ⟨4, _⟩ => ⟨S1024x2048, .f32⟩
  | .hbm, ⟨5, _⟩ => ⟨S1024, .f32⟩
  | .hbm, ⟨6, _⟩ => ⟨S4x2048x2048, .bf16⟩
  | .hbm, ⟨7, _⟩ => ⟨S1024x2048, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x2048x2048, .bf16⟩
  | .local _ .vmem, ⟨5, _⟩ => ⟨S4x2048, .f32⟩
  | .local _ .vmem, ⟨6, _⟩ => ⟨S1024x2048, .bf16⟩
  | .local _ .vmem, ⟨7, _⟩ => ⟨S1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  concatenates_S512x1024_S512x1024_S512x2048_d1 : Shape.Concatenates [S512x1024, S512x1024] S512x2048 1
  inb_S4x2048x2048_S1x2048x2048_0_0_0 : ∀ a, (![0, 0, 0] : Fin 3 → Nat) a + S1x2048x2048.size a ≤ S4x2048x2048.size a
  h_S1x2048x2048 : 0 < S1x2048x2048.numel
  shapeCasts_S1x2048x2048_S2048x2048 : S1x2048x2048.ShapeCasts S2048x2048
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  inb_S4x2048x2048_S1x2048x2048_1_0_0 : ∀ a, (![1, 0, 0] : Fin 3 → Nat) a + S1x2048x2048.size a ≤ S4x2048x2048.size a
  inb_S4x2048_S1x2048_1_0 : ∀ a, (![1, 0] : Fin 2 → Nat) a + S1x2048.size a ≤ S4x2048.size a
  inb_S4x2048x2048_S1x2048x2048_2_0_0 : ∀ a, (![2, 0, 0] : Fin 3 → Nat) a + S1x2048x2048.size a ≤ S4x2048x2048.size a
  inb_S4x2048_S1x2048_2_0 : ∀ a, (![2, 0] : Fin 2 → Nat) a + S1x2048.size a ≤ S4x2048.size a
  inb_S4x2048x2048_S1x2048x2048_3_0_0 : ∀ a, (![3, 0, 0] : Fin 3 → Nat) a + S1x2048x2048.size a ≤ S4x2048x2048.size a
  inb_S4x2048_S1x2048_3_0 : ∀ a, (![3, 0] : Fin 2 → Nat) a + S1x2048.size a ≤ S4x2048.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x2048_S2048x2048_S512x2048_1_1_0_0_n_n_wf : DotDims.WF S512x2048 S2048x2048 S512x2048 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048x2048.size a ≤ S4x2048x2048.size a
  hwx0_2 : ∀ i : grid0.Coords, EltTy.bits .bf16 = 32 ∨ (Rect.block (s := S4x2048x2048) S4x2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2048.size a ≤ S4x2048.size a
  hwx0_3 : ∀ i : grid0.Coords, EltTy.bits .f32 = 32 ∨ (Rect.block (s := S4x2048) S4x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x2048x2048 : Shape := ⟨3, ![4, 2048, 2048]⟩
abbrev S4x2048 : Shape := ⟨2, ![4, 2048]⟩
abbrev S1024x2048 : Shape := ⟨2, ![1024, 2048]⟩
abbrev S1024 : Shape := ⟨1, ![1024]⟩
abbrev S16384x1x1024 : Shape := ⟨3, ![16384, 1, 1024]⟩
abbrev S16384x2x1024 : Shape := ⟨3, ![16384, 2, 1024]⟩
abbrev S_ : Shape := ⟨0, ![]⟩
abbrev S16384x2x2 : Shape := ⟨3, ![16384, 2, 2]⟩
abbrev S16384x2 : Shape := ⟨2, ![16384, 2]⟩
abbrev S16384x2x1 : Shape := ⟨3, ![16384, 2, 1]⟩
abbrev S16384x2048 : Shape := ⟨2, ![16384, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S2048x1024 : Shape := ⟨2, ![2048, 1024]⟩
abbrev S1x1024 : Shape := ⟨2, ![1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S4x2048x2048, .f32⟩
  | .hbm, ⟨3, _⟩ => ⟨S4x2048, .f32⟩
  | .hbm, ⟨4, _⟩ => ⟨S1024x2048, .f32⟩
  | .hbm, ⟨5, _⟩ => ⟨S1024, .f32⟩
  | .hbm, ⟨6, _⟩ => ⟨S16384x1x1024, .f32⟩
  | .hbm, ⟨7, _⟩ => ⟨S16384x1x1024, .f32⟩
  | .hbm, ⟨8, _⟩ => ⟨S16384x2x1024, .f32⟩
  | .hbm, ⟨9, _⟩ => ⟨S_, .f32⟩
  | .hbm, ⟨10, _⟩ => ⟨S16384x2x1024, .f32⟩
  | .hbm, ⟨11, _⟩ => ⟨S16384x2x1024, .f32⟩
  | .hbm, ⟨12, _⟩ => ⟨S16384x2x2, .f32⟩
  | .hbm, ⟨13, _⟩ => ⟨S_, .f32⟩
  | .hbm, ⟨14, _⟩ => ⟨S16384x2, .f32⟩
  | .hbm, ⟨15, _⟩ => ⟨S_, .f32⟩
  | .hbm, ⟨16, _⟩ => ⟨S16384x2, .f32⟩
  | .hbm, ⟨17, _⟩ => ⟨S16384x2, .f32⟩
  | .hbm, ⟨18, _⟩ => ⟨S16384x2x1, .f32⟩
  | .hbm, ⟨19, _⟩ => ⟨S16384x2x2, .f32⟩
  | .hbm, ⟨20, _⟩ => ⟨S16384x2x2, .f32⟩
  | .hbm, ⟨21, _⟩ => ⟨S16384x2x2, .f32⟩
  | .hbm, ⟨22, _⟩ => ⟨S_, .f32⟩
  | .hbm, ⟨23, _⟩ => ⟨S16384x2, .f32⟩
  | .hbm, ⟨24, _⟩ => ⟨S16384x2x1, .f32⟩
  | .hbm, ⟨25, _⟩ => ⟨S16384x2x2, .f32⟩
  | .hbm, ⟨26, _⟩ => ⟨S16384x2x2, .f32⟩
  | .hbm, ⟨27, _⟩ => ⟨S16384x2x1024, .f32⟩
  | .hbm, ⟨28, _⟩ => ⟨S16384x1x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x2048, .f32⟩
  | .hbm, ⟨33, _⟩ => ⟨S1x2048x2048, .f32⟩
  | .hbm, ⟨34, _⟩ => ⟨S2048x2048, .f32⟩
  | .hbm, ⟨35, _⟩ => ⟨S2048x2048, .f32⟩
  | .hbm, ⟨36, _⟩ => ⟨S16384x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S1x2048x2048, .f32⟩
  | .hbm, ⟨46, _⟩ => ⟨S2048x2048, .f32⟩
  | .hbm, ⟨47, _⟩ => ⟨S2048x2048, .f32⟩
  | .hbm, ⟨48, _⟩ => ⟨S16384x2048, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S1x2048x2048, .f32⟩
  | .hbm, ⟨58, _⟩ => ⟨S2048x2048, .f32⟩
  | .hbm, ⟨59, _⟩ => ⟨S2048x2048, .f32⟩
  | .hbm, ⟨60, _⟩ => ⟨S16384x2048, .f32⟩
  | .hbm, ⟨61, _⟩ => ⟨S1x2048, .f32⟩
  | .hbm, ⟨62, _⟩ => ⟨S2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S_, .f32⟩
  | .hbm, ⟨67, _⟩ => ⟨S16384x2048, .f32⟩
  | .hbm, ⟨68, _⟩ => ⟨S16384x2048, .f32⟩
  | .hbm, ⟨69, _⟩ => ⟨S1x2048x2048, .f32⟩
  | .hbm, ⟨70, _⟩ => ⟨S2048x2048, .f32⟩
  | .hbm, ⟨71, _⟩ => ⟨S2048x2048, .f32⟩
  | .hbm, ⟨72, _⟩ => ⟨S16384x2048, .f32⟩
  | .hbm, ⟨73, _⟩ => ⟨S1x2048, .f32⟩
  | .hbm, ⟨74, _⟩ => ⟨S2048, .f32⟩
  | .hbm, ⟨75, _⟩ => ⟨S1x2048, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S2048x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_cst : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_cst : Ref sig .tc := ⟨.hbm, 54, rfl⟩
abbrev main_call1_v0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call2_cst : Ref sig .tc := ⟨.hbm, 66, rfl⟩
abbrev main_call2_v0 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call3_cst : Ref sig .tc := ⟨.hbm, 78, rfl⟩
abbrev main_call3_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]

class Facts₀ : Prop where
  bcast_S16384x1024_S16384x1x1024_0_2 : S16384x1024.BroadcastsInDim S16384x1x1024 (![0, 2] : Fin 2 → Fin S16384x1x1024.rank)
  concatenates_S16384x1x1024_S16384x1x1024_S16384x2x1024_d1 : Shape.Concatenates [S16384x1x1024, S16384x1x1024] S16384x2x1024 1
  bcast_S_S16384x2x1024 : S_.BroadcastsInDim S16384x2x1024 (![] : Fin 0 → Fin S16384x2x1024.rank)
  reducesTo_S16384x2x2_S16384x2_d2 : S16384x2x2.ReducesTo [2] S16384x2
  h_S_ : 0 < S_.numel
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  bcast_S16384x2x1_S16384x2x2_0_1_2 : S16384x2x1.BroadcastsInDim S16384x2x2 (![0, 1, 2] : Fin 3 → Fin S16384x2x2.rank)
  slices_S16384x2x1024_S16384x1x1024_0_0_0 : S16384x2x1024.Slices ![0, 0, 0] S16384x1x1024
  shapeCasts_S16384x1x1024_S16384x1024 : S16384x1x1024.ShapeCasts S16384x1024
  slices_S16384x2x1024_S16384x1x1024_0_1_0 : S16384x2x1024.Slices ![0, 1, 0] S16384x1x1024
  concatenates_S16384x1024_S16384x1024_S16384x2048_d1 : Shape.Concatenates [S16384x1024, S16384x1024] S16384x2048 1
  slices_S4x2048x2048_S1x2048x2048_0_0_0 : S4x2048x2048.Slices ![0, 0, 0] S1x2048x2048
  shapeCasts_S1x2048x2048_S2048x2048 : S1x2048x2048.ShapeCasts S2048x2048
  transposes_S2048x2048_S2048x2048_1_0 : S2048x2048.Transposes [1, 0] S2048x2048
  slices_S4x2048_S1x2048_0_0 : S4x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  slices_S4x2048x2048_S1x2048x2048_1_0_0 : S4x2048x2048.Slices ![1, 0, 0] S1x2048x2048
  slices_S4x2048_S1x2048_1_0 : S4x2048.Slices ![1, 0] S1x2048
  slices_S4x2048x2048_S1x2048x2048_2_0_0 : S4x2048x2048.Slices ![2, 0, 0] S1x2048x2048
  slices_S4x2048_S1x2048_2_0 : S4x2048.Slices ![2, 0] S1x2048
  slices_S4x2048x2048_S1x2048x2048_3_0_0 : S4x2048x2048.Slices ![3, 0, 0] S1x2048x2048
  slices_S4x2048_S1x2048_3_0 : S4x2048.Slices ![3, 0] S1x2048
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x2x1024_S16384x2x1024_S16384x2x2_2_2_1_1_0_0_wf : DotDims.WF S16384x2x1024 S16384x2x1024 S16384x2x2 [2] [2] [1] [1] [0] [0]
  dot_S16384x2x2_S16384x2x1024_S16384x2x1024_2_1_1_2_0_0_wf : DotDims.WF S16384x2x2 S16384x2x1024 S16384x2x1024 [2] [1] [1] [2] [0] [0]
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []

variable [Facts₀]

def dot_S16384x2x1024_S16384x2x1024_S16384x2x2_2_2_1_1_0_0 : DotDims S16384x2x1024 S16384x2x1024 S16384x2x2 where
  lhsContracting := [2]
  rhsContracting := [2]
  lhsNonContracting := [1]
  rhsNonContracting := [1]
  lhsBatch := [0]
  rhsBatch := [0]
  wf := dot_S16384x2x1024_S16384x2x1024_S16384x2x2_2_2_1_1_0_0_wf
def dot_S16384x2x2_S16384x2x1024_S16384x2x1024_2_1_1_2_0_0 : DotDims S16384x2x2 S16384x2x1024 S16384x2x1024 where
  lhsContracting := [2]
  rhsContracting := [1]
  lhsNonContracting := [1]
  rhsNonContracting := [2]
  lhsBatch := [0]
  rhsBatch := [0]
  wf := dot_S16384x2x2_S16384x2x1024_S16384x2x1024_2_1_1_2_0_0_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.Spec.lean ====
/-
  The specification, row by row. Every output row depends on the same row of the two token arrays and on the
  weights only, so the result is stated as ONE function of a pair of rows `a b : Fin 1024 → EReal`:

    * the three scaled scores  s(a,a), s(a,b), s(b,b),  s(u,v) = (∑ d, u d · v d) · 2⁻⁵  (2⁻⁵ spelt as its float word);
    * the two-way softmax of (s(a,a), s(a,b)) and of (s(a,b), s(b,b)), in the closed form
      exp(u − max u v) / (exp(u − max u v) + exp(v − max u v));
    * the two attended tokens  p₀₀·a + p₀₁·b  and  p₁₀·a + p₁₁·b, laid side by side (2048 entries);
    * four layers  h ↦ max(h·Wᵀ + bias, 0)  with W in [out, in] layout, and a last affine layer to 1024 entries.

  Both programs are proved equal to this function, index by index, in the modules that import this one.
-/
import Idealize.ShloMosaic.PureOps.Ideal
import Idealize.ShloMosaic.Lib.ValueIdx

noncomputable section

namespace Cert.AndAttn

open Idealize.ShloMosaic Idealize.ShloMosaic.ValueIdx

/-- The scale 2⁻⁵ = 1/√1024, as the float word the kernel multiplies by. -/
abbrev invT : EReal := Ideal.ofBits .f32 0x3D000000#32

/-- The scaled score of two rows: their inner product times 2⁻⁵. -/
def score (u v : Fin 1024 → EReal) : EReal := (∑ d : Fin 1024, u d * v d) * invT

/-- The softmax weight of the FIRST of two logits, shifted by their maximum. -/
def wL (u v : EReal) : EReal :=
  Ideal.div (Ideal.exp (u - max u v)) (Ideal.exp (u - max u v) + Ideal.exp (v - max u v))

/-- The softmax weight of the SECOND of two logits, shifted by their maximum. -/
def wR (u v : EReal) : EReal :=
  Ideal.div (Ideal.exp (v - max u v)) (Ideal.exp (u - max u v) + Ideal.exp (v - max u v))

/-- The two attended tokens side by side: entries 0…1023 are token 0's mixture of the rows, entries 1024…2047 token 1's. -/
def mix (a b : Fin 1024 → EReal) : Fin 2048 → EReal := fun j =>
  if h : j.val < 1024 then
    wL (score a a) (score a b) * a ⟨j.val, h⟩ + wR (score a a) (score a b) * b ⟨j.val, h⟩
  else
    wL (score a b) (score b b) * a ⟨j.val - 1024, by have := j.isLt; omega⟩
      + wR (score a b) (score b b) * b ⟨j.val - 1024, by have := j.isLt; omega⟩

/-- One hidden layer: `max (h · Wᵀ + bias) 0`, the weight in [out, in] layout. -/
def dense (W : Fin 2048 → Fin 2048 → EReal) (bias : Fin 2048 → EReal) (h : Fin 2048 → EReal) : Fin 2048 → EReal :=
  fun j => max ((∑ k : Fin 2048, h k * W j k) + bias j) 0

/-- The last layer: `h · Wᵀ + bias`, to 1024 entries. -/
def last (W : Fin 1024 → Fin 2048 → EReal) (bias : Fin 1024 → EReal) (h : Fin 2048 → EReal) : Fin 1024 → EReal :=
  fun c => (∑ k : Fin 2048, h k * W c k) + bias c

/-- Layer `l`'s weight and bias out of the stacked arrays. -/
def layerW (Ws : (⟨3, ![4, 2048, 2048]⟩ : Shape).Idx → EReal) (l : Fin 4) : Fin 2048 → Fin 2048 → EReal :=
  fun j k => Ws (ix3 l j k)
def layerB (bs : (⟨2, ![4, 2048]⟩ : Shape).Idx → EReal) (l : Fin 4) : Fin 2048 → EReal :=
  fun j => bs (ix2 l j)

/-- The four hidden layers applied to a 2048-entry row. -/
def hidden (Ws : (⟨3, ![4, 2048, 2048]⟩ : Shape).Idx → EReal) (bs : (⟨2, ![4, 2048]⟩ : Shape).Idx → EReal)
    (h : Fin 2048 → EReal) : Fin 2048 → EReal :=
  dense (layerW Ws 3) (layerB bs 3) (dense (layerW Ws 2) (layerB bs 2) (dense (layerW Ws 1) (layerB bs 1)
    (dense (layerW Ws 0) (layerB bs 0) h)))

/-- THE RESULT ROW: of the rows `a`, `b` of the two token arrays and the weights. -/
def rowOut (a b : Fin 1024 → EReal)
    (Ws : (⟨3, ![4, 2048, 2048]⟩ : Shape).Idx → EReal) (bs : (⟨2, ![4, 2048]⟩ : Shape).Idx → EReal)
    (Wl : (⟨2, ![1024, 2048]⟩ : Shape).Idx → EReal) (bl : (⟨1, ![1024]⟩ : Shape).Idx → EReal) : Fin 1024 → EReal :=
  last (fun c k => Wl (ix2 c k)) (fun c => bl (ix1 c)) (hidden Ws bs (mix a b))

/-- Row `r` of an array of `n` rows of 1024 entries. -/
def rowOf {n : Nat} (x : (⟨2, ![n, 1024]⟩ : Shape).Idx → EReal) (r : Fin n) : Fin 1024 → EReal := fun d => x (ix2 r d)

end Cert.AndAttn

end
-- ==== Proof.Consts.lean ====
/-
  The float words both programs spell, as the extended reals they denote: the reference divides by 32.0, the kernel
  multiplies by 0.03125 = 2⁻⁵ (exactly 1/32: a power of two), and a bf16 or f32 zero word is 0.
-/
import Idealize.ShloMosaic.PureOps.Ideal
import Idealize.ShloMosaic.PureOps.IdealRules

noncomputable section

namespace Cert.AndAttn.Consts

open Idealize.ShloMosaic

/-- `32.0` denotes the real 32. -/
theorem ofBits_32 : Ideal.ofBits .f32 0x42000000#32 = ((32 : ℝ) : EReal) := by
  simp [Ideal.ofBits, Ideal.ieee, -EReal.coe_mul]; norm_num

/-- `0.03125` denotes the real 1/32. -/
theorem ofBits_inv32 : Ideal.ofBits .f32 0x3D000000#32 = ((1 / 32 : ℝ) : EReal) := by
  simp [Ideal.ofBits, Ideal.ieee, -EReal.coe_mul]; norm_num

/-- The f32 zero word denotes 0. -/
theorem ofBits_zero_f32 : Ideal.ofBits .f32 0x00000000#32 = 0 := by simp [Ideal.ofBits, Ideal.ieee]

/-- The bf16 zero word denotes 0. -/
theorem ofBits_zero_bf16 : Ideal.ofBits .bf16 0x0000#16 = 0 := IdealRules.sign_bit.ideal_zero .bf16

/-- The f32 word of -∞ denotes ⊥. -/
theorem ofBits_neg_inf : Ideal.ofBits .f32 0xFF800000#32 = ⊥ := by simp [Ideal.ofBits, Ideal.ieee]

end Cert.AndAttn.Consts

end
-- ==== Proof.RefRow.lean ====
import proofs.«144395_j52132313039254_2_alg».proof.Proof.RefRead
import proofs.«144395_j52132313039254_2_alg».proof.Proof.Spec
import proofs.«144395_j52132313039254_2_alg».proof.Proof.Consts
noncomputable section
namespace Cert.AndAttn.Ref
open Cert.ReferenceIdeal Cert.ReferenceIdeal.ReadP Idealize.ShloMosaic Idealize.ShloMosaic.ValueIdx Cert.AndAttn

/-!
  The reference program read at an index is the row-level specification.

  Fix a row `r` and write a, b for row `r` of the two token arrays. The reference stacks them into two tokens,
  forms the four logits L_st = ∑ d, (x_s d / 32) · x_t d, takes a max-shifted softmax over t, mixes the tokens with
  the softmax weights, lays the two mixtures side by side, applies four layers h ↦ max (h·Wᵀ + bias) 0 and a last
  affine layer. The lemmas below follow that order, each stated at literal coordinates:

    * the stacked array at (r, s, d) is token s at d;
    * L_st is the scaled inner product of tokens s and t. This is the one place where the rows must be real:
      a quotient by 32 inside the sum equals a product by 1/32 outside it by distributivity in ℝ, and the
      inner product is symmetric, so L_10 = L_01;
    * the maximum from −∞ over two entries is their maximum, the sum from 0 of two exponentials is their sum, so
      the softmax weights are the closed forms `wL`, `wR` of the two logits;
    * the attended tokens side by side are `mix a b`;
    * each hidden layer maps an input row g to `dense W_l b_l g`, the weight read through slice, reshape and
      transpose as W (l, j, k), the bias through slice, reshape and two broadcasts as b (l, j);
    * the last layer maps g to `last W b g`.
-/

/-- Coercion ℝ → EReal commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two tokens of row `r`: token 0 is the row of the first array, token 1 the row of the second. -/
def tok (x0 x1 : (⟨S16384x1024, .f32⟩ : BufTy).Contents (Elt Ideal)) (r : Fin 16384) (s : Fin 2) : Fin 1024 → EReal :=
  if s = 0 then rowOf x0 r else rowOf x1 r

theorem tok_zero (x0 x1 : (⟨S16384x1024, .f32⟩ : BufTy).Contents (Elt Ideal)) (r : Fin 16384) : tok x0 x1 r 0 = rowOf x0 r := if_pos rfl
theorem tok_one (x0 x1 : (⟨S16384x1024, .f32⟩ : BufTy).Contents (Elt Ideal)) (r : Fin 16384) : tok x0 x1 r 1 = rowOf x1 r := if_neg (by decide)

theorem tok_real (x0 x1 : (⟨S16384x1024, .f32⟩ : BufTy).Contents (Elt Ideal))
    (h0 : ∀ i, ∃ q : ℝ, x0 i = (q : EReal)) (h1 : ∀ i, ∃ q : ℝ, x1 i = (q : EReal)) (r : Fin 16384) (s : Fin 2) (d : Fin 1024) :
    ∃ q : ℝ, tok x0 x1 r s d = (q : EReal) := by
  unfold tok
  split
  · exact h0 _
  · exact h1 _

/-- The stacked array at (r, s, d) is token `s` of row `r` at `d`. -/
theorem v2_at (x0 x1 : (⟨S16384x1024, .f32⟩ : BufTy).Contents (Elt Ideal)) (r : Fin 16384) (s : Fin 2) (d : Fin 1024) :
    val_main_v2 (F := Ideal) x0 x1 (ix3 r s d) = tok x0 x1 r s d := by
  unfold val_main_v2
  match s with
  | ⟨0, _⟩ =>
    refine (concatenate_pair_apply_left (t := S16384x2x1024) (s₁ := S16384x1x1024) (s₂ := S16384x1x1024) (1 : Fin 3) _ _ _ (ix3 r (0 : Fin 2) d) rfl (ix3 r (0 : Fin 1) d) (fun b => by
      match b with
      | ⟨0, _⟩ => rfl
      | ⟨1, _⟩ => rfl
      | ⟨2, _⟩ => rfl)).trans ?_
    rw [val_main_v0_apply]
    exact congrArg x0 (funext fun a => Fin.ext (by match a with | ⟨0, _⟩ => rfl | ⟨1, _⟩ => rfl))
  | ⟨1, _⟩ =>
    refine (concatenate_pair_apply_right (t := S16384x2x1024) (s₁ := S16384x1x1024) (s₂ := S16384x1x1024) (1 : Fin 3) _ _ _ (ix3 r (1 : Fin 2) d) rfl rfl (ix3 r (0 : Fin 1) d) (fun b hb => by
      match b with
      | ⟨0, _⟩ => rfl
      | ⟨1, _⟩ => exact absurd rfl hb
      | ⟨2, _⟩ => rfl) rfl).trans ?_
    rw [val_main_v1_apply]
    exact congrArg x1 (funext fun a => Fin.ext (by match a with | ⟨0, _⟩ => rfl | ⟨1, _⟩ => rfl))

/-- For real rows the reference's logit, the sum of (u d / 32) · v d, is the scaled inner product. -/
theorem score_law (u v : Fin 1024 → EReal) (hu : ∀ d, ∃ q : ℝ, u d = (q : EReal)) (hv : ∀ d, ∃ q : ℝ, v d = (q : EReal)) :
    ∑ d : Fin 1024, Ideal.div (u d) (Ideal.ofBits .f32 0x42000000#32) * v d = score u v := by
  choose p hp using hu
  choose q hq using hv
  unfold score
  rw [show invT = (((1 / 32 : ℝ)) : EReal) from Consts.ofBits_inv32, Consts.ofBits_32]
  simp only [hp, hq, Ideal.div_coe (show (32 : ℝ) ≠ 0 by norm_num), ← EReal.coe_mul, ← coe_sum]
  rw [Finset.sum_mul]
  exact congrArg _ (Finset.sum_congr rfl fun d _ => by ring)

/-- The scaled inner product is symmetric. -/
theorem score_comm (u v : Fin 1024 → EReal) : score u v = score v u := by
  unfold score
  exact congrArg (· * invT) (Finset.sum_congr rfl fun d _ => mul_comm _ _)

theorem v4_at (x0 x1 : (⟨S16384x1024, .f32⟩ : BufTy).Contents (Elt Ideal)) (r : Fin 16384) (s : Fin 2) (d : Fin 1024) :
    val_main_v4 (F := Ideal) x0 x1 (ix3 r s d) = Ideal.div (tok x0 x1 r s d) (Ideal.ofBits .f32 0x42000000#32) := by
  rw [val_main_v4_apply, v2_at, val_main_v3_apply, val_main_cst_apply]
  rfl

/-- The logit of tokens `s`, `t` of row `r` is their scaled inner product (the rows are real). -/
theorem v5_at (x0 x1 : (⟨S16384x1024, .f32⟩ : BufTy).Contents (Elt Ideal))
    (h0 : ∀ i, ∃ q : ℝ, x0 i = (q : EReal)) (h1 : ∀ i, ∃ q : ℝ, x1 i = (q : EReal)) (r : Fin 16384) (s t : Fin 2) :
    val_main_v5 (F := Ideal) x0 x1 (ix3 r s t) = score (tok x0 x1 r s) (tok x0 x1 r t) := by
  rw [val_main_v5_apply, ← score_law _ _ (tok_real x0 x1 h0 h1 r s) (tok_real x0 x1 h0 h1 r t)]
  refine Finset.sum_congr rfl fun d _ => ?_
  rw [show lidx_main_v5 (ix3 r s t) d = ix3 r s d from
        funext fun a => Fin.ext (by match a with | ⟨0, _⟩ => rfl | ⟨1, _⟩ => rfl | ⟨2, _⟩ => rfl),
      show ridx_main_v5 (ix3 r s t) d = ix3 r t d from
        funext fun a => Fin.ext (by match a with | ⟨0, _⟩ => rfl | ⟨1, _⟩ => rfl | ⟨2, _⟩ => rfl),
      v4_at, v2_at]

/-- A maximum-fold from ⊥ over two entries is the maximum of the two. -/
theorem fold_max_two {n : Nat} (hn : n = 2) (f : Fin n → EReal) :
    (Finset.univ : Finset (Fin n)).fold max ⊥ f = max (f ⟨0, by omega⟩) (f ⟨1, by omega⟩) := by
  subst hn
  rw [show (Finset.univ : Finset (Fin 2)) = insert 0 {1} from by decide, Finset.fold_insert (by decide), Finset.fold_singleton,
    max_bot_right]
  rfl

/-- The reduced index (r, s) with the coordinate `k` put back on the last axis is (r, s, k). -/
theorem lift_rs (h : S16384x2x2.Reduces [2] S16384x2) (r : Fin 16384) (s : Fin 2) (k : Fin (S16384x2x2.size 2)) :
    h.lift (ix2 r s) k = ix3 r s (⟨k.val, k.isLt⟩ : Fin 2) := by
  funext c; apply Fin.ext
  fin_cases c <;> rfl

/-- The row maximum of the logits, from −∞. -/
theorem v6_at (x0 x1 : (⟨S16384x1024, .f32⟩ : BufTy).Contents (Elt Ideal)) (r : Fin 16384) (s : Fin 2) :
    val_main_v6 (F := Ideal) x0 x1 (ix2 r s)
      = max (val_main_v5 (F := Ideal) x0 x1 (ix3 r s 0)) (val_main_v5 (F := Ideal) x0 x1 (ix3 r s 1)) := by
  unfold val_main_v6
  generalize val_main_v5 (F := Ideal) x0 x1 = y
  have hR : S16384x2x2.Reduces [2] S16384x2 := by decide
  refine (Host.reduce_eq_fold_single (α := EReal) (s := S16384x2x2) (t := S16384x2) (a := (2 : Fin 3)) (u := S_) max y
    (val_main_cst_0 (F := Ideal)) Gen.reducesTo_S16384x2x2_S16384x2_d2 hR Gen.h_S_ (ix2 r s)).trans ?_
  have e := fold_max_two (n := S16384x2x2.size 2) rfl (y ∘ hR.lift (ix2 r s))
  rw [val_main_cst_0_apply, Ideal.ofBits_def, Consts.ofBits_neg_inf]
  refine e.trans ?_
  simp only [Function.comp, lift_rs]
  rfl

theorem v8_at (x0 x1 : (⟨S16384x1024, .f32⟩ : BufTy).Contents (Elt Ideal)) (r : Fin 16384) (s : Fin 2) :
    val_main_v8 (F := Ideal) x0 x1 (ix2 r s)
      = max (val_main_v5 (F := Ideal) x0 x1 (ix3 r s 0)) (val_main_v5 (F := Ideal) x0 x1 (ix3 r s 1)) := by
  rw [val_main_v8_apply, v6_at, val_main_v7_apply, val_main_cst_1_apply, Ideal.ofBits_def, Consts.ofBits_neg_inf,
    Ideal.maximumf_def, max_bot_left]

theorem v10_at (x0 x1 : (⟨S16384x1024, .f32⟩ : BufTy).Contents (Elt Ideal)) (r : Fin 16384) (s t : Fin 2) :
    val_main_v10 (F := Ideal) x0 x1 (ix3 r s t)
      = max (val_main_v5 (F := Ideal) x0 x1 (ix3 r s 0)) (val_main_v5 (F := Ideal) x0 x1 (ix3 r s 1)) := by
  rw [val_main_v10_apply, val_main_v9_apply,
    show idx_main_v9 (idx_main_v10 (ix3 r s t)) = ix2 r s from
      funext fun a => Fin.ext (by match a with | ⟨0, _⟩ => rfl | ⟨1, _⟩ => rfl), v8_at]

/-- The shifted exponential of a logit. -/
theorem v12_at (x0 x1 : (⟨S16384x1024, .f32⟩ : BufTy).Contents (Elt Ideal)) (r : Fin 16384) (s t : Fin 2) :
    val_main_v12 (F := Ideal) x0 x1 (ix3 r s t)
      = Ideal.exp (val_main_v5 (F := Ideal) x0 x1 (ix3 r s t)
          - max (val_main_v5 (F := Ideal) x0 x1 (ix3 r s 0)) (val_main_v5 (F := Ideal) x0 x1 (ix3 r s 1))) := by
  rw [val_main_v12_apply, val_main_v11_apply, v10_at, Ideal.hostUnary_exp_def, Ideal.subf_def]

/-- The softmax denominator: the two shifted exponentials, summed from 0. -/
theorem v15_at (x0 x1 : (⟨S16384x1024, .f32⟩ : BufTy).Contents (Elt Ideal)) (r : Fin 16384) (s t : Fin 2) :
    val_main_v15 (F := Ideal) x0 x1 (ix3 r s t)
      = val_main_v12 (F := Ideal) x0 x1 (ix3 r s 0) + val_main_v12 (F := Ideal) x0 x1 (ix3 r s 1) := by
  rw [val_main_v15_apply, val_main_v14_apply,
    show idx_main_v14 (idx_main_v15 (ix3 r s t)) = ix2 r s from
      funext fun a => Fin.ext (by match a with | ⟨0, _⟩ => rfl | ⟨1, _⟩ => rfl),
    val_main_v13_apply, val_main_cst_2_apply, Ideal.ofBits_def, Consts.ofBits_zero_f32, zero_add, Fin.sum_univ_two,
    show idx_main_v13 (ix2 r s) 0 = ix3 r s 0 from
      funext fun a => Fin.ext (by match a with | ⟨0, _⟩ => rfl | ⟨1, _⟩ => rfl | ⟨2, _⟩ => rfl),
    show idx_main_v13 (ix2 r s) 1 = ix3 r s 1 from
      funext fun a => Fin.ext (by match a with | ⟨0, _⟩ => rfl | ⟨1, _⟩ => rfl | ⟨2, _⟩ => rfl)]

/-- The two softmax weights of token `s`, in the closed form of the specification. -/
theorem v16_at0 (x0 x1 : (⟨S16384x1024, .f32⟩ : BufTy).Contents (Elt Ideal)) (r : Fin 16384) (s : Fin 2) :
    val_main_v16 (F := Ideal) x0 x1 (ix3 r s 0)
      = wL (val_main_v5 (F := Ideal) x0 x1 (ix3 r s 0)) (val_main_v5 (F := Ideal) x0 x1 (ix3 r s 1)) := by
  rw [val_main_v16_apply, v15_at, v12_at, v12_at, Ideal.hostDivf_def]
  rfl
theorem v16_at1 (x0 x1 : (⟨S16384x1024, .f32⟩ : BufTy).Contents (Elt Ideal)) (r : Fin 16384) (s : Fin 2) :
    val_main_v16 (F := Ideal) x0 x1 (ix3 r s 1)
      = wR (val_main_v5 (F := Ideal) x0 x1 (ix3 r s 0)) (val_main_v5 (F := Ideal) x0 x1 (ix3 r s 1)) := by
  rw [val_main_v16_apply, v15_at, v12_at, v12_at, Ideal.hostDivf_def]
  rfl

/-- The attended token `s` of row `r` at entry `d`. -/
theorem v17_at (x0 x1 : (⟨S16384x1024, .f32⟩ : BufTy).Contents (Elt Ideal))
    (h0 : ∀ i, ∃ q : ℝ, x0 i = (q : EReal)) (h1 : ∀ i, ∃ q : ℝ, x1 i = (q : EReal)) (r : Fin 16384) (s : Fin 2) (d : Fin 1024) :
    val_main_v17 (F := Ideal) x0 x1 (ix3 r s d)
      = wL (score (tok x0 x1 r s) (rowOf x0 r)) (score (tok x0 x1 r s) (rowOf x1 r)) * rowOf x0 r d
        + wR (score (tok x0 x1 r s) (rowOf x0 r)) (score (tok x0 x1 r s) (rowOf x1 r)) * rowOf x1 r d := by
  rw [val_main_v17_apply, Fin.sum_univ_two,
    show lidx_main_v17 (ix3 r s d) 0 = ix3 r s 0 from
      funext fun a => Fin.ext (by match a with | ⟨0, _⟩ => rfl | ⟨1, _⟩ => rfl | ⟨2, _⟩ => rfl),
    show lidx_main_v17 (ix3 r s d) 1 = ix3 r s 1 from
      funext fun a => Fin.ext (by match a with | ⟨0, _⟩ => rfl | ⟨1, _⟩ => rfl | ⟨2, _⟩ => rfl),
    show ridx_main_v17 (ix3 r s d) 0 = ix3 r 0 d from
      funext fun a => Fin.ext (by match a with | ⟨0, _⟩ => rfl | ⟨1, _⟩ => rfl | ⟨2, _⟩ => rfl),
    show ridx_main_v17 (ix3 r s d) 1 = ix3 r 1 d from
      funext fun a => Fin.ext (by match a with | ⟨0, _⟩ => rfl | ⟨1, _⟩ => rfl | ⟨2, _⟩ => rfl),
    v16_at0, v16_at1, v2_at, v2_at, v5_at x0 x1 h0 h1, v5_at x0 x1 h0 h1, tok_zero, tok_one]

theorem v19_at (x0 x1 : (⟨S16384x1024, .f32⟩ : BufTy).Contents (Elt Ideal)) (r : Fin 16384) (d : Fin 1024) :
    val_main_v19 (F := Ideal) x0 x1 (ix2 r d) = val_main_v17 (F := Ideal) x0 x1 (ix3 r 0 d) := by
  have hd := d.isLt
  rw [val_main_v19_apply, val_main_v18_apply,
    show idx_main_v18 (idx_main_v19 (ix2 r d)) = ix3 r 0 d from
      funext fun a => Fin.ext (by
        match a with
        | ⟨0, _⟩ => show (r.val * 1024 + d.val) / 1024 = r.val; omega
        | ⟨1, _⟩ => rfl
        | ⟨2, _⟩ => show (r.val * 1024 + d.val) % 1024 = d.val; omega)]

theorem v21_at (x0 x1 : (⟨S16384x1024, .f32⟩ : BufTy).Contents (Elt Ideal)) (r : Fin 16384) (d : Fin 1024) :
    val_main_v21 (F := Ideal) x0 x1 (ix2 r d) = val_main_v17 (F := Ideal) x0 x1 (ix3 r 1 d) := by
  have hd := d.isLt
  rw [val_main_v21_apply, val_main_v20_apply,
    show idx_main_v20 (idx_main_v21 (ix2 r d)) = ix3 r 1 d from
      funext fun a => Fin.ext (by
        match a with
        | ⟨0, _⟩ => show (r.val * 1024 + d.val) / 1024 = r.val; omega
        | ⟨1, _⟩ => rfl
        | ⟨2, _⟩ => show (r.val * 1024 + d.val) % 1024 = d.val; omega)]

/-- The two attended tokens side by side are the specification's `mix` of the two rows. -/
theorem v22_at (x0 x1 : (⟨S16384x1024, .f32⟩ : BufTy).Contents (Elt Ideal))
    (h0 : ∀ i, ∃ q : ℝ, x0 i = (q : EReal)) (h1 : ∀ i, ∃ q : ℝ, x1 i = (q : EReal)) (r : Fin 16384) (j : Fin 2048) :
    val_main_v22 (F := Ideal) x0 x1 (ix2 r j) = mix (rowOf x0 r) (rowOf x1 r) j := by
  unfold val_main_v22 mix
  have hj := j.isLt
  by_cases h : j.val < 1024
  · rw [dif_pos h]
    refine (concatenate_pair_apply_left (t := S16384x2048) (s₁ := S16384x1024) (s₂ := S16384x1024) (1 : Fin 2) _ _ _
      (ix2 r j) rfl (ix2 r (⟨j.val, h⟩ : Fin 1024)) (fun b => by
        match b with
        | ⟨0, _⟩ => rfl
        | ⟨1, _⟩ => rfl)).trans ?_
    rw [v19_at, v17_at x0 x1 h0 h1, tok_zero]
  · rw [dif_neg h]
    refine (concatenate_pair_apply_right (t := S16384x2048) (s₁ := S16384x1024) (s₂ := S16384x1024) (1 : Fin 2) _ _ _
      (ix2 r j) rfl rfl (ix2 r (⟨j.val - 1024, by omega⟩ : Fin 1024)) (fun b hb => by
        match b with
        | ⟨0, _⟩ => rfl
        | ⟨1, _⟩ => exact absurd rfl hb) (by show j.val - 1024 + 1024 = j.val; omega)).trans ?_
    rw [v21_at, v17_at x0 x1 h0 h1, tok_one, score_comm (rowOf x1 r) (rowOf x0 r)]

/-- Layer 0's transposed weight at (k, j) is the stacked weight at (0, j, k). -/
theorem w0_at (x2 : (⟨S4x2048x2048, .f32⟩ : BufTy).Contents (Elt Ideal)) (k j : Fin 2048) :
    val_main_v25 (F := Ideal) x2 (ix2 k j) = x2 (ix3 (0 : Fin 4) j k) := by
  have hj := j.isLt
  have hk := k.isLt
  rw [val_main_v25_apply, val_main_v24_apply, val_main_v23_apply]
  exact congrArg x2 (funext fun a => Fin.ext (by
    match a with
    | ⟨0, _⟩ => rfl
    | ⟨1, _⟩ => show (j.val * 2048 + k.val) / 2048 % 2048 = j.val; omega
    | ⟨2, _⟩ => show (j.val * 2048 + k.val) % 2048 = k.val; omega))

/-- Layer 0's broadcast bias at (r, j) is the stacked bias at (0, j). -/
theorem b0_at (x3 : (⟨S4x2048, .f32⟩ : BufTy).Contents (Elt Ideal)) (r : Fin 16384) (j : Fin 2048) :
    val_main_v30 (F := Ideal) x3 (ix2 r j) = x3 (ix2 (0 : Fin 4) j) := by
  have hj := j.isLt
  rw [val_main_v30_apply, val_main_v29_apply, val_main_v28_apply, val_main_v27_apply]
  exact congrArg x3 (funext fun a => Fin.ext (by
    match a with
    | ⟨0, _⟩ => rfl
    | ⟨1, _⟩ => show j.val % 2048 = j.val; omega))

/-- Hidden layer 0: if its input row is `g`, its output row is `dense` of layer 0's weight and bias at `g`. -/
theorem layer0 (x0 x1 : (⟨S16384x1024, .f32⟩ : BufTy).Contents (Elt Ideal)) (x2 : (⟨S4x2048x2048, .f32⟩ : BufTy).Contents (Elt Ideal)) (x3 : (⟨S4x2048, .f32⟩ : BufTy).Contents (Elt Ideal)) (r : Fin 16384) (g : Fin 2048 → EReal)
    (hin : ∀ k, val_main_v22 (F := Ideal) x0 x1 (ix2 r k) = g k) (j : Fin 2048) :
    val_main_v32 (F := Ideal) x0 x1 x2 x3 (ix2 r j) = dense (layerW x2 0) (layerB x3 0) g j := by
  rw [val_main_v32_apply, val_main_v31_apply, val_main_v26_apply, b0_at, val_main_call0_v0_apply,
    val_main_call0_cst_apply, Ideal.ofBits_def, Consts.ofBits_zero_f32, Ideal.maximumf_def, Ideal.addf_def]
  unfold dense layerW layerB
  refine congrArg (fun z => max (z + x3 (ix2 (0 : Fin 4) j)) 0) (Finset.sum_congr rfl fun k _ => ?_)
  rw [show lidx_main_v26 (ix2 r j) k = ix2 r k from funext fun a => Fin.ext (by match a with | ⟨0, _⟩ => rfl | ⟨1, _⟩ => rfl),
    show ridx_main_v26 (ix2 r j) k = ix2 k j from funext fun a => Fin.ext (by match a with | ⟨0, _⟩ => rfl | ⟨1, _⟩ => rfl), hin, w0_at]

/-- Layer 1's transposed weight at (k, j) is the stacked weight at (1, j, k). -/
theorem w1_at (x2 : (⟨S4x2048x2048, .f32⟩ : BufTy).Contents (Elt Ideal)) (k j : Fin 2048) :
    val_main_v35 (F := Ideal) x2 (ix2 k j) = x2 (ix3 (1 : Fin 4) j k) := by
  have hj := j.isLt
  have hk := k.isLt
  rw [val_main_v35_apply, val_main_v34_apply, val_main_v33_apply]
  exact congrArg x2 (funext fun a => Fin.ext (by
    match a with
    | ⟨0, _⟩ => rfl
    | ⟨1, _⟩ => show (j.val * 2048 + k.val) / 2048 % 2048 = j.val; omega
    | ⟨2, _⟩ => show (j.val * 2048 + k.val) % 2048 = k.val; omega))

/-- Layer 1's broadcast bias at (r, j) is the stacked bias at (1, j). -/
theorem b1_at (x3 : (⟨S4x2048, .f32⟩ : BufTy).Contents (Elt Ideal)) (r : Fin 16384) (j : Fin 2048) :
    val_main_v40 (F := Ideal) x3 (ix2 r j) = x3 (ix2 (1 : Fin 4) j) := by
  have hj := j.isLt
  rw [val_main_v40_apply, val_main_v39_apply, val_main_v38_apply, val_main_v37_apply]
  exact congrArg x3 (funext fun a => Fin.ext (by
    match a with
    | ⟨0, _⟩ => rfl
    | ⟨1, _⟩ => show j.val % 2048 = j.val; omega))

/-- Hidden layer 1: if its input row is `g`, its output row is `dense` of layer 1's weight and bias at `g`. -/
theorem layer1 (x0 x1 : (⟨S16384x1024, .f32⟩ : BufTy).Contents (Elt Ideal)) (x2 : (⟨S4x2048x2048, .f32⟩ : BufTy).Contents (Elt Ideal)) (x3 : (⟨S4x2048, .f32⟩ : BufTy).Contents (Elt Ideal)) (r : Fin 16384) (g : Fin 2048 → EReal)
    (hin : ∀ k, val_main_v32 (F := Ideal) x0 x1 x2 x3 (ix2 r k) = g k) (j : Fin 2048) :
    val_main_v42 (F := Ideal) x0 x1 x2 x3 (ix2 r j) = dense (layerW x2 1) (layerB x3 1) g j := by
  rw [val_main_v42_apply, val_main_v41_apply, val_main_v36_apply, b1_at, val_main_call1_v0_apply,
    val_main_call1_cst_apply, Ideal.ofBits_def, Consts.ofBits_zero_f32, Ideal.maximumf_def, Ideal.addf_def]
  unfold dense layerW layerB
  refine congrArg (fun z => max (z + x3 (ix2 (1 : Fin 4) j)) 0) (Finset.sum_congr rfl fun k _ => ?_)
  rw [show lidx_main_v36 (ix2 r j) k = ix2 r k from funext fun a => Fin.ext (by match a with | ⟨0, _⟩ => rfl | ⟨1, _⟩ => rfl),
    show ridx_main_v36 (ix2 r j) k = ix2 k j from funext fun a => Fin.ext (by match a with | ⟨0, _⟩ => rfl | ⟨1, _⟩ => rfl), hin, w1_at]

/-- Layer 2's transposed weight at (k, j) is the stacked weight at (2, j, k). -/
theorem w2_at (x2 : (⟨S4x2048x2048, .f32⟩ : BufTy).Contents (Elt Ideal)) (k j : Fin 2048) :
    val_main_v45 (F := Ideal) x2 (ix2 k j) = x2 (ix3 (2 : Fin 4) j k) := by
  have hj := j.isLt
  have hk := k.isLt
  rw [val_main_v45_apply, val_main_v44_apply, val_main_v43_apply]
  exact congrArg x2 (funext fun a => Fin.ext (by
    match a with
    | ⟨0, _⟩ => rfl
    | ⟨1, _⟩ => show (j.val * 2048 + k.val) / 2048 % 2048 = j.val; omega
    | ⟨2, _⟩ => show (j.val * 2048 + k.val) % 2048 = k.val; omega))

/-- Layer 2's broadcast bias at (r, j) is the stacked bias at (2, j). -/
theorem b2_at (x3 : (⟨S4x2048, .f32⟩ : BufTy).Contents (Elt Ideal)) (r : Fin 16384) (j : Fin 2048) :
    val_main_v50 (F := Ideal) x3 (ix2 r j) = x3 (ix2 (2 : Fin 4) j) := by
  have hj := j.isLt
  rw [val_main_v50_apply, val_main_v49_apply, val_main_v48_apply, val_main_v47_apply]
  exact congrArg x3 (funext fun a => Fin.ext (by
    match a with
    | ⟨0, _⟩ => rfl
    | ⟨1, _⟩ => show j.val % 2048 = j.val; omega))

/-- Hidden layer 2: if its input row is `g`, its output row is `dense` of layer 2's weight and bias at `g`. -/
theorem layer2 (x0 x1 : (⟨S16384x1024, .f32⟩ : BufTy).Contents (Elt Ideal)) (x2 : (⟨S4x2048x2048, .f32⟩ : BufTy).Contents (Elt Ideal)) (x3 : (⟨S4x2048, .f32⟩ : BufTy).Contents (Elt Ideal)) (r : Fin 16384) (g : Fin 2048 → EReal)
    (hin : ∀ k, val_main_v42 (F := Ideal) x0 x1 x2 x3 (ix2 r k) = g k) (j : Fin 2048) :
    val_main_v52 (F := Ideal) x0 x1 x2 x3 (ix2 r j) = dense (layerW x2 2) (layerB x3 2) g j := by
  rw [val_main_v52_apply, val_main_v51_apply, val_main_v46_apply, b2_at, val_main_call2_v0_apply,
    val_main_call2_cst_apply, Ideal.ofBits_def, Consts.ofBits_zero_f32, Ideal.maximumf_def, Ideal.addf_def]
  unfold dense layerW layerB
  refine congrArg (fun z => max (z + x3 (ix2 (2 : Fin 4) j)) 0) (Finset.sum_congr rfl fun k _ => ?_)
  rw [show lidx_main_v46 (ix2 r j) k = ix2 r k from funext fun a => Fin.ext (by match a with | ⟨0, _⟩ => rfl | ⟨1, _⟩ => rfl),
    show ridx_main_v46 (ix2 r j) k = ix2 k j from funext fun a => Fin.ext (by match a with | ⟨0, _⟩ => rfl | ⟨1, _⟩ => rfl), hin, w2_at]

/-- Layer 3's transposed weight at (k, j) is the stacked weight at (3, j, k). -/
theorem w3_at (x2 : (⟨S4x2048x2048, .f32⟩ : BufTy).Contents (Elt Ideal)) (k j : Fin 2048) :
    val_main_v55 (F := Ideal) x2 (ix2 k j) = x2 (ix3 (3 : Fin 4) j k) := by
  have hj := j.isLt
  have hk := k.isLt
  rw [val_main_v55_apply, val_main_v54_apply, val_main_v53_apply]
  exact congrArg x2 (funext fun a => Fin.ext (by
    match a with
    | ⟨0, _⟩ => rfl
    | ⟨1, _⟩ => show (j.val * 2048 + k.val) / 2048 % 2048 = j.val; omega
    | ⟨2, _⟩ => show (j.val * 2048 + k.val) % 2048 = k.val; omega))

/-- Layer 3's broadcast bias at (r, j) is the stacked bias at (3, j). -/
theorem b3_at (x3 : (⟨S4x2048, .f32⟩ : BufTy).Contents (Elt Ideal)) (r : Fin 16384) (j : Fin 2048) :
    val_main_v60 (F := Ideal) x3 (ix2 r j) = x3 (ix2 (3 : Fin 4) j) := by
  have hj := j.isLt
  rw [val_main_v60_apply, val_main_v59_apply, val_main_v58_apply, val_main_v57_apply]
  exact congrArg x3 (funext fun a => Fin.ext (by
    match a with
    | ⟨0, _⟩ => rfl
    | ⟨1, _⟩ => show j.val % 2048 = j.val; omega))

/-- Hidden layer 3: if its input row is `g`, its output row is `dense` of layer 3's weight and bias at `g`. -/
theorem layer3 (x0 x1 : (⟨S16384x1024, .f32⟩ : BufTy).Contents (Elt Ideal)) (x2 : (⟨S4x2048x2048, .f32⟩ : BufTy).Contents (Elt Ideal)) (x3 : (⟨S4x2048, .f32⟩ : BufTy).Contents (Elt Ideal)) (r : Fin 16384) (g : Fin 2048 → EReal)
    (hin : ∀ k, val_main_v52 (F := Ideal) x0 x1 x2 x3 (ix2 r k) = g k) (j : Fin 2048) :
    val_main_v62 (F := Ideal) x0 x1 x2 x3 (ix2 r j) = dense (layerW x2 3) (layerB x3 3) g j := by
  rw [val_main_v62_apply, val_main_v61_apply, val_main_v56_apply, b3_at, val_main_call3_v0_apply,
    val_main_call3_cst_apply, Ideal.ofBits_def, Consts.ofBits_zero_f32, Ideal.maximumf_def, Ideal.addf_def]
  unfold dense layerW layerB
  refine congrArg (fun z => max (z + x3 (ix2 (3 : Fin 4) j)) 0) (Finset.sum_congr rfl fun k _ => ?_)
  rw [show lidx_main_v56 (ix2 r j) k = ix2 r k from funext fun a => Fin.ext (by match a with | ⟨0, _⟩ => rfl | ⟨1, _⟩ => rfl),
    show ridx_main_v56 (ix2 r j) k = ix2 k j from funext fun a => Fin.ext (by match a with | ⟨0, _⟩ => rfl | ⟨1, _⟩ => rfl), hin, w3_at]

/-- The last affine layer: if its input row is `g`, the result row is `last` of the last weight and bias at `g`. -/
theorem last_at (x0 x1 : (⟨S16384x1024, .f32⟩ : BufTy).Contents (Elt Ideal)) (x2 : (⟨S4x2048x2048, .f32⟩ : BufTy).Contents (Elt Ideal)) (x3 : (⟨S4x2048, .f32⟩ : BufTy).Contents (Elt Ideal)) (x4 : (⟨S1024x2048, .f32⟩ : BufTy).Contents (Elt Ideal)) (x5 : (⟨S1024, .f32⟩ : BufTy).Contents (Elt Ideal)) (r : Fin 16384) (g : Fin 2048 → EReal)
    (hin : ∀ k, val_main_v62 (F := Ideal) x0 x1 x2 x3 (ix2 r k) = g k) (c : Fin 1024) :
    val_main_v67 (F := Ideal) x0 x1 x2 x3 x4 x5 (ix2 r c) = last (fun c k => x4 (ix2 c k)) (fun c => x5 (ix1 c)) g c := by
  rw [val_main_v67_apply, val_main_v64_apply, val_main_v66_apply, val_main_v65_apply, Ideal.addf_def,
    show idx_main_v65 (idx_main_v66 (ix2 r c)) = ix1 c from funext fun a => Fin.ext (by match a with | ⟨0, _⟩ => rfl)]
  unfold last
  refine congrArg (fun z => z + x5 (ix1 c)) (Finset.sum_congr rfl fun k _ => ?_)
  rw [show lidx_main_v64 (ix2 r c) k = ix2 r k from funext fun a => Fin.ext (by match a with | ⟨0, _⟩ => rfl | ⟨1, _⟩ => rfl),
    show ridx_main_v64 (ix2 r c) k = ix2 k c from funext fun a => Fin.ext (by match a with | ⟨0, _⟩ => rfl | ⟨1, _⟩ => rfl), hin, val_main_v63_apply,
    show idx_main_v63 (ix2 k c) = ix2 c k from funext fun a => Fin.ext (by match a with | ⟨0, _⟩ => rfl | ⟨1, _⟩ => rfl)]

/-- THE REFERENCE, ROW BY ROW: its result at (r, c) is the specification's row function of row `r` of the two
    token arrays, at `c`. The rows' finiteness is used once, for the logits (a quotient by 32 inside the sum
    against a product by 1/32 outside); everything after is the same expression on both sides. -/
theorem ref_row (x0 x1 : (⟨S16384x1024, .f32⟩ : BufTy).Contents (Elt Ideal))
    (x2 : (⟨S4x2048x2048, .f32⟩ : BufTy).Contents (Elt Ideal)) (x3 : (⟨S4x2048, .f32⟩ : BufTy).Contents (Elt Ideal))
    (x4 : (⟨S1024x2048, .f32⟩ : BufTy).Contents (Elt Ideal)) (x5 : (⟨S1024, .f32⟩ : BufTy).Contents (Elt Ideal))
    (h0 : ∀ i, ∃ q : ℝ, x0 i = (q : EReal)) (h1 : ∀ i, ∃ q : ℝ, x1 i = (q : EReal))
    (r : Fin 16384) (c : Fin 1024) :
    val_main_v67 (F := Ideal) x0 x1 x2 x3 x4 x5 (ix2 r c) = rowOut (rowOf x0 r) (rowOf x1 r) x2 x3 x4 x5 c := by
  unfold rowOut hidden
  exact last_at x0 x1 x2 x3 x4 x5 r _
    (fun k3 => layer3 x0 x1 x2 x3 r _
      (fun k2 => layer2 x0 x1 x2 x3 r _
        (fun k1 => layer1 x0 x1 x2 x3 r _
          (fun k0 => layer0 x0 x1 x2 x3 r _ (fun k => v22_at x0 x1 h0 h1 r k) k0) k1) k2) k3) c

end Cert.AndAttn.Ref
end
-- ==== Proof.SpecArray.lean ====
/-
  The whole result array as ONE function of the six argument arrays: entry (r, c) is the result row of rows r of the
  two token arrays, at c.
-/
import proofs.«144395_j52132313039254_2_alg».proof.Proof.Spec

noncomputable section

namespace Cert.AndAttn

open Idealize.ShloMosaic Idealize.ShloMosaic.ValueIdx

/-- The result array, index by index. -/
def Gfull (x0 x1 : (⟨2, ![16384, 1024]⟩ : Shape).Idx → EReal)
    (Ws : (⟨3, ![4, 2048, 2048]⟩ : Shape).Idx → EReal) (bs : (⟨2, ![4, 2048]⟩ : Shape).Idx → EReal)
    (Wl : (⟨2, ![1024, 2048]⟩ : Shape).Idx → EReal) (bl : (⟨1, ![1024]⟩ : Shape).Idx → EReal) :
    (⟨2, ![16384, 1024]⟩ : Shape).Idx → EReal :=
  fun i => rowOut (rowOf x0 ⟨(i 0).val, idx2_lt0 i⟩) (rowOf x1 ⟨(i 0).val, idx2_lt0 i⟩) Ws bs Wl bl ⟨(i 1).val, idx2_lt1 i⟩

/-- At an index given by its coordinates. -/
theorem Gfull_ix2 (x0 x1 : (⟨2, ![16384, 1024]⟩ : Shape).Idx → EReal)
    (Ws : (⟨3, ![4, 2048, 2048]⟩ : Shape).Idx → EReal) (bs : (⟨2, ![4, 2048]⟩ : Shape).Idx → EReal)
    (Wl : (⟨2, ![1024, 2048]⟩ : Shape).Idx → EReal) (bl : (⟨1, ![1024]⟩ : Shape).Idx → EReal) (r : Fin 16384) (c : Fin 1024) :
    Gfull x0 x1 Ws bs Wl bl (ix2 r c) = rowOut (rowOf x0 r) (rowOf x1 r) Ws bs Wl bl c := rfl

/-- At any index whose coordinates are known. -/
theorem Gfull_of_coords (x0 x1 : (⟨2, ![16384, 1024]⟩ : Shape).Idx → EReal)
    (Ws : (⟨3, ![4, 2048, 2048]⟩ : Shape).Idx → EReal) (bs : (⟨2, ![4, 2048]⟩ : Shape).Idx → EReal)
    (Wl : (⟨2, ![1024, 2048]⟩ : Shape).Idx → EReal) (bl : (⟨1, ![1024]⟩ : Shape).Idx → EReal)
    (i : (⟨2, ![16384, 1024]⟩ : Shape).Idx) (r : Fin 16384) (c : Fin 1024) (h0 : (i 0).val = r.val) (h1 : (i 1).val = c.val) :
    Gfull x0 x1 Ws bs Wl bl i = rowOut (rowOf x0 r) (rowOf x1 r) Ws bs Wl bl c := by
  have hi : i = ix2 r c := funext fun a => Fin.ext (by
    match a with
    | ⟨0, _⟩ => exact h0
    | ⟨1, _⟩ => exact h1)
  rw [hi, Gfull_ix2]

end Cert.AndAttn

end
-- ==== Proof.RefArray.lean ====
/-
  The reference's result array is the result array `Gfull` of its six arguments, when the two token arrays hold real
  numbers: index by index this is the row-level statement, an index of the array being a row and a column.
-/
import proofs.«144395_j52132313039254_2_alg».proof.Proof.RefRow
import proofs.«144395_j52132313039254_2_alg».proof.Proof.SpecArray

noncomputable section

namespace Cert.AndAttn.Ref

open Cert.ReferenceIdeal Cert.ReferenceIdeal.ReadP Idealize.ShloMosaic Idealize.ShloMosaic.ValueIdx Cert.AndAttn

theorem ref_is_G (x0 x1 : (⟨S16384x1024, .f32⟩ : BufTy).Contents (Elt Ideal))
    (x2 : (⟨S4x2048x2048, .f32⟩ : BufTy).Contents (Elt Ideal)) (x3 : (⟨S4x2048, .f32⟩ : BufTy).Contents (Elt Ideal))
    (x4 : (⟨S1024x2048, .f32⟩ : BufTy).Contents (Elt Ideal)) (x5 : (⟨S1024, .f32⟩ : BufTy).Contents (Elt Ideal))
    (h0 : ∀ i, ∃ q : ℝ, x0 i = (q : EReal)) (h1 : ∀ i, ∃ q : ℝ, x1 i = (q : EReal)) :
    val_main_v67 (F := Ideal) x0 x1 x2 x3 x4 x5 = Gfull x0 x1 x2 x3 x4 x5 := by
  funext i
  obtain ⟨r, c, rfl⟩ : ∃ (r : Fin 16384) (c : Fin 1024), i = ix2 r c := ⟨i 0, i 1, eq_ix2 i⟩
  rw [Gfull_ix2]
  exact ref_row x0 x1 x2 x3 x4 x5 h0 h1 r c

end Cert.AndAttn.Ref

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.KerAttn.lean ====
/-
  The kernel body's first stage at an index: from the two 512 × 1024 blocks of token rows to the 512 × 2048 block of
  attended tokens. Per row p: the three lane sums of products, scaled by 2⁻⁵, are the scores of the row pair; the
  closed-form two-way softmax of the score columns gives four weight columns; each attended token is a weight column
  spread over the lanes times the rows, added; the two tokens sit side by side. So entry (p, j) of the stage is
  `mix` of rows p of the two blocks at j.
-/
import proofs.«144395_j52132313039254_2_alg».proof.Proof.Gen.KernelIdeal.Skeleton
import proofs.«144395_j52132313039254_2_alg».proof.Proof.Spec
import proofs.«144395_j52132313039254_2_alg».proof.Proof.Consts
import proofs.«144395_j52132313039254_2_alg».proof.Proof.LibKeepdims
import Idealize.ShloMosaic.PureOps.Ideal.Laws
import Idealize.ShloMosaic.Lib.Pipeline.Value

noncomputable section

namespace Cert.AndAttn.Ker

open Cert.KernelIdeal Cert.KernelIdeal.Gen Idealize.ShloMosaic Idealize.ShloMosaic.ValueIdx Cert.AndAttn Cert.Lib.Keepdims

/-- The column of scaled lane sums of the entrywise product of two blocks. -/
def colScore (u v : Vec Ideal S512x1024 .f32) : FVec Ideal S512x1 .f32 :=
  mulf (shapeCast S512x1 (multiReduction .add [1] S512 (mulf u v) 0x00000000#32 reduces_S512x1024_S512 (.inl rfl) rfl) shapeCasts_S512_S512x1)
    (broadcast S512x1 (Scalar.ofBits .f32 0x3D000000#32))

/-- The softmax weight columns of two logit columns: of the first logit, and of the second. -/
def colL (x y : FVec Ideal S512x1 .f32) : FVec Ideal S512x1 .f32 :=
  divf (exp (subf x (maximumf x y))) (addf (exp (subf x (maximumf x y))) (exp (subf y (maximumf x y))))
def colR (x y : FVec Ideal S512x1 .f32) : FVec Ideal S512x1 .f32 :=
  divf (exp (subf y (maximumf x y))) (addf (exp (subf x (maximumf x y))) (exp (subf y (maximumf x y))))

/-- An attended token: two weight columns spread over the lanes, times the two blocks, added. -/
def token (wl wr : FVec Ideal S512x1 .f32) (u v : Vec Ideal S512x1024 .f32) : FVec Ideal S512x1024 .f32 :=
  addf (mulf (broadcastTo S512x1024 wl broadcasts_S512x1_S512x1024) u) (mulf (broadcastTo S512x1024 wr broadcasts_S512x1_S512x1024) v)

/-- The stage is these pieces composed (the printed sequence of operations, regrouped). -/
theorem pay2_eq (u v : Vec Ideal S512x1024 .f32) :
    k0_pay2 u v = truncf .bf16 (concatenate S512x2048 1
      [⟨S512x1024, token (colL (colScore u u) (colScore u v)) (colR (colScore u u) (colScore u v)) u v⟩,
       ⟨S512x1024, token (colL (colScore u v) (colScore v v)) (colR (colScore u v) (colScore v v)) u v⟩]
      concatenates_S512x1024_S512x1024_S512x2048_d1) bitsLt_bf16_f32 := rfl

/-- A score column at row p is the score of rows p. -/
theorem colScore_at (u v : Vec Ideal S512x1024 .f32) (p : Fin 512) :
    colScore u v (ix2 p (0 : Fin 1)) = score (rowOf u p) (rowOf v p) := by
  unfold colScore
  rw [mulf_apply, broadcast_apply, shapeCast_a_a1_apply]
  refine congrArg (· * invT) ?_
  refine (Ideal.multiReduction_add_single (mulf u v) 0x00000000#32 reduces_S512x1024_S512 (.inl rfl) rfl (ix1 p)).trans ?_
  refine Finset.sum_congr rfl fun (k : Fin 1024) _ => ?_
  exact (congrArg (fun i => u i * v i) (lift_axis1 reduces_S512x1024_S512 p k)).trans rfl

/-- The weight columns at row p are the closed-form softmax weights of the two logits there. -/
theorem colL_at (x y : FVec Ideal S512x1 .f32) (p : Fin 512) :
    colL x y (ix2 p (0 : Fin 1)) = wL (x (ix2 p (0 : Fin 1))) (y (ix2 p (0 : Fin 1))) := rfl
theorem colR_at (x y : FVec Ideal S512x1 .f32) (p : Fin 512) :
    colR x y (ix2 p (0 : Fin 1)) = wR (x (ix2 p (0 : Fin 1))) (y (ix2 p (0 : Fin 1))) := rfl

/-- An attended token at (p, d): the two weights of row p times the two rows' entries at d. -/
theorem token_at (wl wr : FVec Ideal S512x1 .f32) (u v : Vec Ideal S512x1024 .f32) (p : Fin 512) (d : Fin 1024) :
    token wl wr u v (ix2 p d) = wl (ix2 p (0 : Fin 1)) * u (ix2 p d) + wr (ix2 p (0 : Fin 1)) * v (ix2 p d) := by
  show broadcastTo S512x1024 wl broadcasts_S512x1_S512x1024 (ix2 p d) * u (ix2 p d)
      + broadcastTo S512x1024 wr broadcasts_S512x1_S512x1024 (ix2 p d) * v (ix2 p d) = _
  rw [broadcastTo_a1_ab_apply, broadcastTo_a1_ab_apply]

/-- Two 512 × 1024 blocks side by side, read at (p, j): the first at (p, j) for j < 1024, else the second at (p, j − 1024). -/
theorem sideBySide_at (t0 t1 : S512x1024.Idx → EReal) (p : Fin 512) (j : Fin 2048) :
    concatenate S512x2048 1 [⟨S512x1024, t0⟩, ⟨S512x1024, t1⟩] concatenates_S512x1024_S512x1024_S512x2048_d1 (ix2 p j)
      = if h : j.val < 1024 then t0 (ix2 p ⟨j.val, h⟩) else t1 (ix2 p ⟨j.val - 1024, by have := j.isLt; omega⟩) := by
  by_cases h : j.val < 1024
  · rw [dif_pos h]
    refine concatenate_pair_apply_left (1 : Fin 2) t0 t1 _ (ix2 p j) rfl (ix2 p ⟨j.val, h⟩) fun b => ?_
    match b with
    | ⟨0, _⟩ => rfl
    | ⟨1, _⟩ => rfl
  · rw [dif_neg h]
    refine concatenate_pair_apply_right (1 : Fin 2) t0 t1 _ (ix2 p j) rfl rfl (ix2 p ⟨j.val - 1024, by have := j.isLt; omega⟩) (fun b hb => ?_) ?_
    · match b with
      | ⟨0, _⟩ => rfl
      | ⟨1, _⟩ => exact absurd rfl hb
    · show (j.val - 1024) + 1024 = j.val
      omega

/-- THE STAGE AT AN INDEX: entry (p, j) is `mix` of rows p of the two blocks. -/
theorem pay2_at (u v : Vec Ideal S512x1024 .f32) (p : Fin 512) (j : Fin 2048) :
    k0_pay2 u v (ix2 p j) = mix (rowOf u p) (rowOf v p) j := by
  rw [pay2_eq, truncf_apply, sideBySide_at]
  unfold mix
  by_cases h : j.val < 1024
  · rw [dif_pos h, dif_pos h, token_at, colL_at, colR_at, colScore_at, colScore_at]
    rfl
  · rw [dif_neg h, dif_neg h, token_at, colL_at, colR_at, colScore_at, colScore_at]
    rfl

end Cert.AndAttn.Ker

end
-- ==== Proof.KerLayers.lean ====
/-
  The kernel body's layers at an index. A hidden layer takes a 512 × 2048 block x, a [1, 2048, 2048] slice w of the
  stacked weights (layout [out, in]) and a [1, 2048] slice of the stacked biases; its entry (p, j) is
  max (∑ k, x[p, k] · w[0, j, k] + bias[0, j]) 0 — the matrix product contracts the LAST axis of both operands, into a
  zero accumulator, the bias row is spread over the 512 rows, and the rounding to bf16 in between is the identity on
  the extended reals. The last layer is the same without the maximum, to 1024 columns.
-/
import proofs.«144395_j52132313039254_2_alg».proof.Proof.Gen.KernelIdeal.Skeleton
import proofs.«144395_j52132313039254_2_alg».proof.Proof.Spec
import proofs.«144395_j52132313039254_2_alg».proof.Proof.Consts
import Idealize.ShloMosaic.PureOps.Ideal.Laws
import Idealize.ShloMosaic.Lib.Pipeline.Value
import Idealize.ShloMosaic.Lib.ValueLayout

noncomputable section

namespace Cert.AndAttn.Ker

open Cert.KernelIdeal Cert.KernelIdeal.Gen Idealize.ShloMosaic Idealize.ShloMosaic.ValueIdx Cert.AndAttn

/-! ## The two contractions' operand indices -/

theorem mmH_lhs0 (i : S512x2048.Idx) (q : dot_S512x2048_S2048x2048_S512x2048_1_1_0_0_n_n.contr.Idx) : (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem mmH_lhs1 (i : S512x2048.Idx) (q : dot_S512x2048_S2048x2048_S512x2048_1_1_0_0_n_n.contr.Idx) : (dot_S512x2048_S2048x2048_S512x2048_1_1_0_0_n_n.lhsIdx i q 1).val = (q ⟨0, by decide⟩).val :=
  dot_S512x2048_S2048x2048_S512x2048_1_1_0_0_n_n.lhsIdx_val_of_single rfl i q
theorem mmH_rhs0 (i : S512x2048.Idx) (q : dot_S512x2048_S2048x2048_S512x2048_1_1_0_0_n_n.contr.Idx) : (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem mmH_rhs1 (i : S512x2048.Idx) (q : dot_S512x2048_S2048x2048_S512x2048_1_1_0_0_n_n.contr.Idx) : (dot_S512x2048_S2048x2048_S512x2048_1_1_0_0_n_n.rhsIdx i q 1).val = (q ⟨0, by decide⟩).val :=
  dot_S512x2048_S2048x2048_S512x2048_1_1_0_0_n_n.rhsIdx_val_of_single rfl i q

theorem mmL_lhs0 (i : S512x1024.Idx) (q : dot_S512x2048_S1024x2048_S512x1024_1_1_0_0_n_n.contr.Idx) : (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem mmL_lhs1 (i : S512x1024.Idx) (q : dot_S512x2048_S1024x2048_S512x1024_1_1_0_0_n_n.contr.Idx) : (dot_S512x2048_S1024x2048_S512x1024_1_1_0_0_n_n.lhsIdx i q 1).val = (q ⟨0, by decide⟩).val :=
  dot_S512x2048_S1024x2048_S512x1024_1_1_0_0_n_n.lhsIdx_val_of_single rfl i q
theorem mmL_rhs0 (i : S512x1024.Idx) (q : dot_S512x2048_S1024x2048_S512x1024_1_1_0_0_n_n.contr.Idx) : (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem mmL_rhs1 (i : S512x1024.Idx) (q : dot_S512x2048_S1024x2048_S512x1024_1_1_0_0_n_n.contr.Idx) : (dot_S512x2048_S1024x2048_S512x1024_1_1_0_0_n_n.rhsIdx i q 1).val = (q ⟨0, by decide⟩).val :=
  dot_S512x2048_S1024x2048_S512x1024_1_1_0_0_n_n.rhsIdx_val_of_single rfl i q

/-! ## The two matrix products at an index -/

/-- The product into zero, contracting both operands' last axis, at (p, j): ∑ k, x[p, k] · w[j, k]. -/
theorem mmH_at (x : FVec Ideal S512x2048 .bf16) (w : FVec Ideal S2048x2048 .bf16) (p : Fin 512) (j : Fin 2048) :
    matmul dot_S512x2048_S2048x2048_S512x2048_1_1_0_0_n_n none x w (constant S512x2048 .f32 0x00000000#32) (ix2 p j) = ∑ k : Fin 2048, x (ix2 p k) * w (ix2 j k) := by
  simp only [matmul]
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p j) ((contrEquiv1 dot_S512x2048_S2048x2048_S512x2048_1_1_0_0_n_n 2048 rfl rfl).symm k) = ix2 p k := funext fun a => Fin.ext (by
    match a with
    | ⟨0, _⟩ => exact mmH_lhs0 _ _
    | ⟨1, _⟩ => exact (mmH_lhs1 _ _).trans hk)
  have er : dot_S512x2048_S2048x2048_S512x2048_1_1_0_0_n_n.rhsIdx (ix2 p j) ((contrEquiv1 dot_S512x2048_S2048x2048_S512x2048_1_1_0_0_n_n 2048 rfl rfl).symm k) = ix2 j k := funext fun a => Fin.ext (by
    match a with
    | ⟨0, _⟩ => exact mmH_rhs0 _ _
    | ⟨1, _⟩ => exact (mmH_rhs1 _ _).trans hk)
  rw [el, er]

/-- The product into zero, contracting both operands' last axis, at (p, j): ∑ k, x[p, k] · w[j, k]. -/
theorem mmL_at (x : FVec Ideal S512x2048 .bf16) (w : FVec Ideal S1024x2048 .bf16) (p : Fin 512) (j : Fin 1024) :
    matmul dot_S512x2048_S1024x2048_S512x1024_1_1_0_0_n_n none x w (constant S512x1024 .f32 0x00000000#32) (ix2 p j) = ∑ k : Fin 2048, x (ix2 p k) * w (ix2 j k) := by
  simp only [matmul]
  rw [Ideal.matmul_constant_zero_apply, ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p j) ((contrEquiv1 dot_S512x2048_S1024x2048_S512x1024_1_1_0_0_n_n 2048 rfl rfl).symm k) = ix2 p k := funext fun a => Fin.ext (by
    match a with
    | ⟨0, _⟩ => exact mmL_lhs0 _ _
    | ⟨1, _⟩ => exact (mmL_lhs1 _ _).trans hk)
  have er : dot_S512x2048_S1024x2048_S512x1024_1_1_0_0_n_n.rhsIdx (ix2 p j) ((contrEquiv1 dot_S512x2048_S1024x2048_S512x1024_1_1_0_0_n_n 2048 rfl rfl).symm k) = ix2 j k := funext fun a => Fin.ext (by
    match a with
    | ⟨0, _⟩ => exact mmL_rhs0 _ _
    | ⟨1, _⟩ => exact (mmL_rhs1 _ _).trans hk)
  rw [el, er]

/-! ## The layers -/

/-- One hidden layer of the body, as printed. -/
def kLayer (x : FVec Ideal S512x2048 .bf16) (w : Vec Ideal S1x2048x2048 .bf16) (bias : Vec Ideal S1x2048 .f32) : FVec Ideal S512x2048 .bf16 :=
  maximumf (truncf .bf16 (addf
      (matmul dot_S512x2048_S2048x2048_S512x2048_1_1_0_0_n_n none x (shapeCast S2048x2048 w shapeCasts_S1x2048x2048_S2048x2048 : FVec Ideal S2048x2048 .bf16) (constant S512x2048 .f32 0x00000000#32))
      (broadcastTo S512x2048 (shapeCast S1x2048 (shapeCast S2048 bias shapeCasts_S1x2048_S2048 : FVec Ideal S2048 .f32) shapeCasts_S2048_S1x2048 : FVec Ideal S1x2048 .f32) broadcasts_S1x2048_S512x2048 : FVec Ideal S512x2048 .f32))
    bitsLt_bf16_f32 : FVec Ideal S512x2048 .bf16) (broadcast S512x2048 (Scalar.ofBits .bf16 0x0000#16))

/-- The last layer of the body, as printed. -/
def kLast (x : FVec Ideal S512x2048 .bf16) (w : Vec Ideal S1024x2048 .bf16) (bias : Vec Ideal S1024 .f32) : FVec Ideal S512x1024 .f32 :=
  addf (matmul dot_S512x2048_S1024x2048_S512x1024_1_1_0_0_n_n none x (shapeCast S1024x2048 w shapeCasts_S1024x2048_S1024x2048 : FVec Ideal S1024x2048 .bf16) (constant S512x1024 .f32 0x00000000#32))
    (broadcastTo S512x1024 (shapeCast S1x1024 bias shapeCasts_S1024_S1x1024 : FVec Ideal S1x1024 .f32) broadcasts_S1x1024_S512x1024 : FVec Ideal S512x1024 .f32)

/-- The body's second stage is three hidden layers. -/
theorem pay3_eq (x : FVec Ideal S512x2048 .bf16) (w0 : Vec Ideal S1x2048x2048 .bf16) (b0 : Vec Ideal S1x2048 .f32)
    (w1 : Vec Ideal S1x2048x2048 .bf16) (b1 : Vec Ideal S1x2048 .f32) (w2 : Vec Ideal S1x2048x2048 .bf16) (b2 : Vec Ideal S1x2048 .f32) :
    k0_pay3 x w0 b0 w1 b1 w2 b2 = kLayer (kLayer (kLayer x w0 b0) w1 b1) w2 b2 := rfl

/-- The body's stored value is the fourth hidden layer followed by the last layer. -/
theorem pay1_eq (x : FVec Ideal S512x2048 .bf16) (w3 : Vec Ideal S1x2048x2048 .bf16) (b3 : Vec Ideal S1x2048 .f32)
    (wl : Vec Ideal S1024x2048 .bf16) (bl : Vec Ideal S1024 .f32) :
    k0_pay1 x (k0_pay4 w3) (k0_pay5 b3) (constant S512x2048 .f32 0x00000000#32) wl bl = kLast (kLayer x w3 b3) wl bl := rfl

/-- A hidden layer at (p, j). -/
theorem kLayer_at (x : FVec Ideal S512x2048 .bf16) (w : Vec Ideal S1x2048x2048 .bf16) (bias : Vec Ideal S1x2048 .f32)
    (p : Fin 512) (j : Fin 2048) :
    kLayer x w bias (ix2 p j)
      = dense (fun j k => w (ix3 (0 : Fin 1) j k)) (fun j => bias (ix2 (0 : Fin 1) j)) (fun k => x (ix2 p k)) j := by
  unfold kLayer dense
  rw [maximumf_apply, truncf_apply, addf_apply, broadcast_apply, mmH_at, broadcastTo_1b_ab_apply, shapeCast_a_1a_apply,
    shapeCast_1a_a_apply]
  simp only [shapeCast_1ab_ab_apply]
  show max _ (Ideal.ofBits .bf16 0x0000#16) = _
  rw [Consts.ofBits_zero_bf16]

/-- The last layer at (p, c). -/
theorem kLast_at (x : FVec Ideal S512x2048 .bf16) (w : Vec Ideal S1024x2048 .bf16) (bias : Vec Ideal S1024 .f32)
    (p : Fin 512) (c : Fin 1024) :
    kLast x w bias (ix2 p c) = last (fun c k => w (ix2 c k)) (fun c => bias (ix1 c)) (fun k => x (ix2 p k)) c := by
  unfold kLast last
  rw [addf_apply, mmL_at, broadcastTo_1b_ab_apply, shapeCast_a_1a_apply]
  simp only [shapeCast_self]

end Cert.AndAttn.Ker

end
-- ==== Proof.KerRow.lean ====
/-
  The kernel body's stored value, row by row. The body loads its two token blocks whole, slab l of the stacked weights
  and row l of the stacked biases for l = 0 … 3, and the last layer's weight and bias whole; a load through a
  rectangle reads the array at the rectangle's offset plus the index. With the first stage read as `mix` and each layer
  read as `dense` / `last`, entry (p, c) of what the body stores is `rowOut` of rows p of the two blocks at c.
-/
import proofs.«144395_j52132313039254_2_alg».proof.Proof.Gen.KernelIdeal.Frame
import proofs.«144395_j52132313039254_2_alg».proof.Proof.KerAttn
import proofs.«144395_j52132313039254_2_alg».proof.Proof.KerLayers

noncomputable section

namespace Cert.AndAttn.Ker

open Cert.KernelIdeal Cert.KernelIdeal.Gen Idealize.ShloMosaic Idealize.ShloMosaic.ValueIdx Cert.AndAttn

/-! ## Slab l of the stacked weights and row l of the stacked biases, as loaded -/

theorem ldW0 (w : Vec Ideal S4x2048x2048 .bf16) (j k : Fin 2048) :
    View.ld w r0_1 (ix3 (0 : Fin 1) j k) = w (ix3 (0 : Fin 4) j k) := by
  refine congrArg w (funext fun a => Fin.ext ?_)
  match a with
  | ⟨0, _⟩ => rfl
  | ⟨1, _⟩ => show 0 + 1 * j.val = j.val; omega
  | ⟨2, _⟩ => show 0 + 1 * k.val = k.val; omega
theorem ldW1 (w : Vec Ideal S4x2048x2048 .bf16) (j k : Fin 2048) :
    View.ld w r0_3 (ix3 (0 : Fin 1) j k) = w (ix3 (1 : Fin 4) j k) := by
  refine congrArg w (funext fun a => Fin.ext ?_)
  match a with
  | ⟨0, _⟩ => rfl
  | ⟨1, _⟩ => show 0 + 1 * j.val = j.val; omega
  | ⟨2, _⟩ => show 0 + 1 * k.val = k.val; omega
theorem ldW2 (w : Vec Ideal S4x2048x2048 .bf16) (j k : Fin 2048) :
    View.ld w r0_5 (ix3 (0 : Fin 1) j k) = w (ix3 (2 : Fin 4) j k) := by
  refine congrArg w (funext fun a => Fin.ext ?_)
  match a with
  | ⟨0, _⟩ => rfl
  | ⟨1, _⟩ => show 0 + 1 * j.val = j.val; omega
  | ⟨2, _⟩ => show 0 + 1 * k.val = k.val; omega
theorem ldW3 (w : Vec Ideal S4x2048x2048 .bf16) (j k : Fin 2048) :
    View.ld w r0_7 (ix3 (0 : Fin 1) j k) = w (ix3 (3 : Fin 4) j k) := by
  refine congrArg w (funext fun a => Fin.ext ?_)
  match a with
  | ⟨0, _⟩ => rfl
  | ⟨1, _⟩ => show 0 + 1 * j.val = j.val; omega
  | ⟨2, _⟩ => show 0 + 1 * k.val = k.val; omega

theorem ldB0 (b : Vec Ideal S4x2048 .f32) (j : Fin 2048) :
    View.ld b r0_2 (ix2 (0 : Fin 1) j) = b (ix2 (0 : Fin 4) j) := by
  refine congrArg b (funext fun a => Fin.ext ?_)
  match a with
  | ⟨0, _⟩ => rfl
  | ⟨1, _⟩ => show 0 + 1 * j.val = j.val; omega
theorem ldB1 (b : Vec Ideal S4x2048 .f32) (j : Fin 2048) :
    View.ld b r0_4 (ix2 (0 : Fin 1) j) = b (ix2 (1 : Fin 4) j) := by
  refine congrArg b (funext fun a => Fin.ext ?_)
  match a with
  | ⟨0, _⟩ => rfl
  | ⟨1, _⟩ => show 0 + 1 * j.val = j.val; omega
theorem ldB2 (b : Vec Ideal S4x2048 .f32) (j : Fin 2048) :
    View.ld b r0_6 (ix2 (0 : Fin 1) j) = b (ix2 (2 : Fin 4) j) := by
  refine congrArg b (funext fun a => Fin.ext ?_)
  match a with
  | ⟨0, _⟩ => rfl
  | ⟨1, _⟩ => show 0 + 1 * j.val = j.val; omega
theorem ldB3 (b : Vec Ideal S4x2048 .f32) (j : Fin 2048) :
    View.ld b r0_8 (ix2 (0 : Fin 1) j) = b (ix2 (3 : Fin 4) j) := by
  refine congrArg b (funext fun a => Fin.ext ?_)
  match a with
  | ⟨0, _⟩ => rfl
  | ⟨1, _⟩ => show 0 + 1 * j.val = j.val; omega

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

/-- A hidden layer of equal weights, biases and inputs is equal. -/
theorem dense_congr {W W' : Fin 2048 → Fin 2048 → EReal} {B B' : Fin 2048 → EReal} {g g' : Fin 2048 → EReal}
    (hW : W = W') (hB : B = B') (hg : g = g') (j : Fin 2048) : dense W B g j = dense W' B' g' j := by
  rw [hW, hB, hg]

/-! ## The stored value at an index -/

/-- Entry (p, c) of the body's stored value is the result row of rows p of the two token blocks, at c. -/
theorem body_row (b0 b1 : Vec Ideal S512x1024 .f32) (w : Vec Ideal S4x2048x2048 .bf16) (bs : Vec Ideal S4x2048 .f32)
    (wl : Vec Ideal S1024x2048 .bf16) (bl : Vec Ideal S1024 .f32) (p : Fin 512) (c : Fin 1024) :
    k0_pay1 (k0_pay3 (k0_pay2 (View.ld b0 r0_0) (View.ld b1 r0_0)) (View.ld w r0_1) (View.ld bs r0_2) (View.ld w r0_3) (View.ld bs r0_4) (View.ld w r0_5) (View.ld bs r0_6))
        (k0_pay4 (View.ld w r0_7)) (k0_pay5 (View.ld bs r0_8)) (constant S512x2048 .f32 0x00000000#32) (View.ld wl r0_9) (View.ld bl r0_10) (ix2 p c)
      = rowOut (rowOf b0 p) (rowOf b1 p) w bs wl bl c := by
  rw [View.ld_unit_zero (S := S512x1024) zeros2 _ b0, View.ld_unit_zero (S := S512x1024) zeros2 _ b1,
    View.ld_unit_zero (S := S1024x2048) zeros2 _ wl, View.ld_unit_zero (S := S1024) zeros1 _ bl]
  rw [pay1_eq, pay3_eq, kLast_at]
  unfold rowOut hidden layerW layerB
  simp only [kLayer_at, pay2_at]
  refine congrArg (fun h => last (fun c k => wl (ix2 c k)) (fun c => bl (ix1 c)) h c) (funext fun k3 => ?_)
  refine dense_congr (funext fun j => funext fun k => ldW3 w j k) (funext fun j => ldB3 bs j) (funext fun k2 => ?_) k3
  refine dense_congr (funext fun j => funext fun k => ldW2 w j k) (funext fun j => ldB2 bs j) (funext fun k1 => ?_) k2
  refine dense_congr (funext fun j => funext fun k => ldW1 w j k) (funext fun j => ldB1 bs j) (funext fun k0 => ?_) k1
  exact dense_congr (funext fun j => funext fun k => ldW0 w j k) (funext fun j => ldB0 bs j) rfl k0

end Cert.AndAttn.Ker

end
-- ==== Proof.KerArray.lean ====
/-
  From blocks to the array. The grid has 32 points; at point t the two token windows and the output window sit at rows
  512·t … 512·t + 511 (all 1024 columns), and the four weight windows are their whole arrays at every point. So what
  point t writes back is block t of ONE function of the arrays the region finds — the result array `Gfull` —, the 32
  blocks cover the output array, and after the run the output array is `Gfull` of the arguments: the two weight arrays
  the region finds were rounded to bf16 by the host before it, which on the extended reals is the identity.
-/
import proofs.«144395_j52132313039254_2_alg».proof.Proof.Gen.KernelIdeal.Value
import proofs.«144395_j52132313039254_2_alg».proof.Proof.KerRow
import proofs.«144395_j52132313039254_2_alg».proof.Proof.SpecArray
import Idealize.ShloMosaic.Lib.StableHlo.Run
import Idealize.ShloMosaic.Lib.Pipeline.Value

noncomputable section

namespace Cert.AndAttn.Ker

open Cert.KernelIdeal Cert.KernelIdeal.Gen Idealize.ShloMosaic Idealize.ShloMosaic.TcCoe Idealize.SL.Sem
open Idealize.ShloMosaic.ValueIdx Cert.AndAttn
open Idealize.ShloMosaic.Pipeline (Dat)

variable (m : (ℓ : Loc nD τ sig) → Buf (Elt Ideal) ℓ) (ρ : Dev nD → PrngReg)

/-! ## Where the windows sit -/

/-- The printed index maps, decided over the 32 points: the token and output windows at block row t, column block 0;
    the weight windows at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 32 := by
  have h := t.isLt
  have e : cfg0.N = 32 := N_0
  omega

theorem row_lt (t : Fin cfg0.N) (p : Fin 512) : t.val * 512 + p.val < 16384 := by
  have := t_lt t
  have := p.isLt
  omega

/-! ## The input blocks, read off the arrays the region finds -/

theorem blk0_at (c : Dev nD) (t : Fin cfg0.N) (p : Fin 512) (d : Fin 1024) :
    (iblk m c 0 t : Vec Ideal S512x1024 .f32) (ix2 p d) = V m c main_arg0 (ix2 ⟨t.val * 512 + p.val, row_lt t p⟩ d) := by
  show V m c main_arg0 (((cfg0.win 0).blk t).view.emb (ix2 p d)) = _
  refine congrArg (V m c main_arg0) (funext fun a => Fin.ext ?_)
  have e := idx_facts t
  match a with
  | ⟨0, _⟩ => show win0_0.index t (0 : Fin 2) * 512 + 1 * p.val = t.val * 512 + p.val; rw [e.1]; omega
  | ⟨1, _⟩ => show win0_0.index t (1 : Fin 2) * 1024 + 1 * d.val = d.val; rw [e.2.1]; omega

theorem blk1_at (c : Dev nD) (t : Fin cfg0.N) (p : Fin 512) (d : Fin 1024) :
    (iblk m c 1 t : Vec Ideal S512x1024 .f32) (ix2 p d) = V m c main_arg1 (ix2 ⟨t.val * 512 + p.val, row_lt t p⟩ d) := by
  show V m c main_arg1 (((cfg0.win 1).blk t).view.emb (ix2 p d)) = _
  refine congrArg (V m c main_arg1) (funext fun a => Fin.ext ?_)
  have e := idx_facts t
  match a with
  | ⟨0, _⟩ => show win0_1.index t (0 : Fin 2) * 512 + 1 * p.val = t.val * 512 + p.val; rw [e.2.2.1]; omega
  | ⟨1, _⟩ => show win0_1.index t (1 : Fin 2) * 1024 + 1 * d.val = d.val; rw [e.2.2.2.1]; omega

/-- The stacked-weights window is the whole array at every point. -/
theorem blk2_eq (c : Dev nD) (t : Fin cfg0.N) : (iblk m c 2 t : Vec Ideal S4x2048x2048 .bf16) = V m c main_v0 := by
  funext y
  show V m c main_v0 (((cfg0.win 2).blk t).view.emb y) = V m c main_v0 y
  refine congrArg (V m c main_v0) (funext fun a => Fin.ext ?_)
  have e := idx_facts t
  match a with
  | ⟨0, _⟩ => show win0_2.index t (0 : Fin 3) * 4 + 1 * (y 0).val = (y 0).val; rw [e.2.2.2.2.1]; omega
  | ⟨1, _⟩ => show win0_2.index t (1 : Fin 3) * 2048 + 1 * (y 1).val = (y 1).val; rw [e.2.2.2.2.2.1]; omega
  | ⟨2, _⟩ => show win0_2.index t (2 : Fin 3) * 2048 + 1 * (y 2).val = (y 2).val; rw [e.2.2.2.2.2.2.1]; omega

/-- The stacked-biases window is the whole array at every point. -/
theorem blk3_eq (c : Dev nD) (t : Fin cfg0.N) : (iblk m c 3 t : Vec Ideal S4x2048 .f32) = V m c main_arg3 := by
  funext y
  show V m c main_arg3 (((cfg0.win 3).blk t).view.emb y) = V m c main_arg3 y
  refine congrArg (V m c main_arg3) (funext fun a => Fin.ext ?_)
  have e := idx_facts t
  match a with
  | ⟨0, _⟩ => show win0_3.index t (0 : Fin 2) * 4 + 1 * (y 0).val = (y 0).val; rw [e.2.2.2.2.2.2.2.1]; omega
  | ⟨1, _⟩ => show win0_3.index t (1 : Fin 2) * 2048 + 1 * (y 1).val = (y 1).val; rw [e.2.2.2.2.2.2.2.2.1]; omega

/-- The last weight's window is the whole array at every point. -/
theorem blk4_eq (c : Dev nD) (t : Fin cfg0.N) : (iblk m c 4 t : Vec Ideal S1024x2048 .bf16) = V m c main_v1 := by
  funext y
  show V m c main_v1 (((cfg0.win 4).blk t).view.emb y) = V m c main_v1 y
  refine congrArg (V m c main_v1) (funext fun a => Fin.ext ?_)
  have e := idx_facts t
  match a with
  | ⟨0, _⟩ => show win0_4.index t (0 : Fin 2) * 1024 + 1 * (y 0).val = (y 0).val; rw [e.2.2.2.2.2.2.2.2.2.1]; omega
  | ⟨1, _⟩ => show win0_4.index t (1 : Fin 2) * 2048 + 1 * (y 1).val = (y 1).val; rw [e.2.2.2.2.2.2.2.2.2.2.1]; omega

/-- The last bias's window is the whole array at every point. -/
theorem blk5_eq (c : Dev nD) (t : Fin cfg0.N) : (iblk m c 5 t : Vec Ideal S1024 .f32) = V m c main_arg5 := by
  funext y
  show V m c main_arg5 (((cfg0.win 5).blk t).view.emb y) = V m c main_arg5 y
  refine congrArg (V m c main_arg5) (funext fun a => Fin.ext ?_)
  have e := idx_facts t
  match a with
  | ⟨0, _⟩ => show win0_5.index t (0 : Fin 1) * 1024 + 1 * (y 0).val = (y 0).val; rw [e.2.2.2.2.2.2.2.2.2.2.2.1]; omega

/-! ## What a point writes back -/

/-- A block's rows are rows of the arrays: from the row-level statement to the array-level function. -/
theorem rows_are_G (X0 X1 : S16384x1024.Idx → EReal) (W : S4x2048x2048.Idx → EReal) (BS : S4x2048.Idx → EReal)
    (WL : S1024x2048.Idx → EReal) (BL : S1024.Idx → EReal)
    (b0 b1 : Vec Ideal S512x1024 .f32) (w : Vec Ideal S4x2048x2048 .bf16) (bs : Vec Ideal S4x2048 .f32)
    (wl : Vec Ideal S1024x2048 .bf16) (bl : Vec Ideal S1024 .f32) (T : Nat) (p : Fin 512) (q : Fin 1024) (hT : T * 512 + p.val < 16384)
    (h0 : ∀ d : Fin 1024, b0 (ix2 p d) = X0 (ix2 ⟨T * 512 + p.val, hT⟩ d))
    (h1 : ∀ d : Fin 1024, b1 (ix2 p d) = X1 (ix2 ⟨T * 512 + p.val, hT⟩ d))
    (hw : w = W) (hbs : bs = BS) (hwl : wl = WL) (hbl : bl = BL)
    (i : S16384x1024.Idx) (hi0 : (i 0).val = T * 512 + p.val) (hi1 : (i 1).val = q.val) :
    rowOut (rowOf b0 p) (rowOf b1 p) w bs wl bl q = Gfull X0 X1 W BS WL BL i := by
  subst hw hbs hwl hbl
  rw [Gfull_of_coords X0 X1 w bs wl bl i ⟨T * 512 + p.val, hT⟩ q hi0 hi1]
  have e0 : rowOf b0 p = rowOf X0 ⟨T * 512 + p.val, hT⟩ := funext fun d => h0 d
  have e1 : rowOf b1 p = rowOf X1 ⟨T * 512 + p.val, hT⟩ := funext fun d => h1 d
  rw [e0, e1]

/-- WHAT POINT t WRITES BACK is block t of the result array of the arrays the region finds. -/
theorem flushed_eq (c : Dev nD) (t : Fin cfg0.N) :
    (dats m 0 c).flushed 6 t = ((cfg0.win 6).blk t).view.read (Elt Ideal)
      (Gfull (V m c main_arg0) (V m c main_arg1) (V m c main_v0) (V m c main_arg3) (V m c main_v1) (V m c main_arg5)) := by
  rw [Cert.KernelIdeal.Value.flushed6]
  unfold out0_6
  rw [View.canon_unit_zero zeros2]
  funext y
  obtain ⟨p, q, rfl⟩ : ∃ (p : Fin 512) (q : Fin 1024), y = ix2 p q := ⟨y 0, y 1, eq_ix2 y⟩
  refine (body_row (iblk m c 0 t) (iblk m c 1 t) (iblk m c 2 t) (iblk m c 3 t) (iblk m c 4 t) (iblk m c 5 t) p q).trans ?_
  have e := idx_facts t
  exact rows_are_G (V m c main_arg0) (V m c main_arg1) (V m c main_v0) (V m c main_arg3) (V m c main_v1) (V m c main_arg5)
    (iblk m c 0 t) (iblk m c 1 t) (iblk m c 2 t) (iblk m c 3 t) (iblk m c 4 t) (iblk m c 5 t) t.val p q (row_lt t p)
    (fun d => blk0_at m c t p d) (fun d => blk1_at m c t p d) (blk2_eq m c t) (blk3_eq m c t) (blk4_eq m c t) (blk5_eq m c t)
    (((cfg0.win 6).blk t).view.emb (ix2 p q))
    (by show win0_6.index t (0 : Fin 2) * 512 + 1 * p.val = t.val * 512 + p.val; rw [e.2.2.2.2.2.2.2.2.2.2.2.2.1]; omega)
    (by show win0_6.index t (1 : Fin 2) * 1024 + 1 * q.val = q.val; rw [e.2.2.2.2.2.2.2.2.2.2.2.2.2]; omega)

/-! ## The blocks cover the output array -/

/-- An index of the output array is in point t's block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2).slice (win0_6.rect t)).set ↔ _
  rw [View.set_slice_whole, Rect.mem_set_unit]
  exact Iff.rfl

/-- Row r of the output array is in the block of point r / 512. -/
theorem cover (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hN : cfg0.N = 32 := N_0
  refine ⟨⟨(i 0).val / 512, by omega⟩, flush0_6 _, ?_⟩
  rw [mem_blk]
  have e := idx_facts ⟨(i 0).val / 512, by omega⟩
  intro a
  match a with
  | ⟨0, _⟩ =>
    show win0_6.index _ (0 : Fin 2) * 512 ≤ (i 0).val ∧ (i 0).val < win0_6.index _ (0 : Fin 2) * 512 + 512
    rw [e.2.2.2.2.2.2.2.2.2.2.2.2.1]
    show (i 0).val / 512 * 512 ≤ (i 0).val ∧ (i 0).val < (i 0).val / 512 * 512 + 512
    omega
  | ⟨1, _⟩ =>
    show win0_6.index _ (1 : Fin 2) * 1024 ≤ (i 1).val ∧ (i 1).val < win0_6.index _ (1 : Fin 2) * 1024 + 1024
    rw [e.2.2.2.2.2.2.2.2.2.2.2.2.2]
    omega

/-! ## The arrays the region finds, and the run -/

/-- The host rounds the stacked weights to bf16 before the region: on the extended reals, the argument itself. -/
theorem V_v0 (c : Dev nD) : (V m c main_v0 : S4x2048x2048.Idx → EReal) = m ((c : Thread nD τ).loc main_arg2) := by
  have e : (V m c main_v0 : S4x2048x2048.Idx → EReal)
      = truncf (F := Ideal) .bf16 (m ((c : Thread nD τ).loc main_arg2) : FVec Ideal S4x2048x2048 .f32) bitsLt_bf16_f32 := by
    dsimp only [Gen.V, Gen.hostOps0]; after_results
  rw [e]; rfl

/-- The same for the last layer's weight. -/
theorem V_v1 (c : Dev nD) : (V m c main_v1 : S1024x2048.Idx → EReal) = m ((c : Thread nD τ).loc main_arg4) := by
  have e : (V m c main_v1 : S1024x2048.Idx → EReal)
      = truncf (F := Ideal) .bf16 (m ((c : Thread nD τ).loc main_arg4) : FVec Ideal S1024x2048 .f32) bitsLt_bf16_f32 := by
    dsimp only [Gen.V, Gen.hostOps0]; after_results
  rw [e]; rfl

/-- THE OUTPUT ARRAY after the run is the result array of the six arguments. -/
theorem final (c : Dev nD) : (dats m 0 c).arrAt 6 cfg0.N
    = Gfull (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [← V_main_arg0 m c, ← V_main_arg1 m c, ← V_v0 m c, ← V_main_arg3 m c, ← V_v1 m c, ← V_main_arg5 m c]
  exact (dats m 0 c).arrAt_eq_of_cover 6 _ (fun t _ => flushed_eq m c t) (cover)

/-- The run: every weakly fair execution terminates with the result array at `Gfull` of the arguments, the arguments
    unchanged. -/
theorem run : θ_run defs (onTc (τ := τ) (main (F := Ideal))) ⟨m, fun _ => 0, ρ⟩ fun r => ∀ c : Dev nD,
      r.2.mem ((c : Thread nD τ).loc main_v2)
        = Gfull (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.AndAttn.Ker

end
-- ==== Proof.Finite.lean ====
import proofs.«144395_j52132313039254_2_alg».proof.Pre_finite_inputs
import Idealize.ShloMosaic.PureOps.Ideal
import Idealize.ShloMosaic.Lib.ReduceAll
import Idealize.ShloMosaic.Lib.ValueIdx
noncomputable section
namespace Cert.AndAttn.Finite
open Idealize.ShloMosaic Cert.Pre_finite_inputs

/-!
  The precondition makes the two token arrays real-valued.

  The precondition is the conjunction, over the six arguments, of "every entry x satisfies |x| < +∞", each conjunct
  an and-reduction over all axes of the entrywise comparison. A conjunction of bits that is 1 has every bit 1, an
  and-reduction that is 1 met only 1s, and an extended real with max x (−x) < ⊤ is neither ⊥ nor ⊤, so it is a real.
  Only the first two conjuncts are read.
-/

/-- The scalar shape has one index. -/
instance : Subsingleton S_.Idx := ⟨fun a b => funext fun d => d.elim0⟩

/-- An extended real whose absolute value compares below the word of +∞ is a real. -/
theorem real_of_abs_lt (x : EReal)
    (hx : Ideal.cmp .olt (max x (-x)) (Ideal.ofBits .f32 0x7F800000#32) = 1#1) : ∃ q : ℝ, x = (q : EReal) := by
  have htop : Ideal.ofBits .f32 0x7F800000#32 = ⊤ := by simp [Ideal.ofBits, Ideal.ieee]
  rw [htop] at hx
  induction x using EReal.rec with
  | bot => exact absurd hx (by simp [Ideal.cmp])
  | coe q => exact ⟨q, rfl⟩
  | top => exact absurd hx (by simp [Ideal.cmp])

theorem tokens_real [Cert.Pre_finite_inputs.Facts]
    (x0 x1 : FVec Ideal S16384x1024 .f32) (x2 : FVec Ideal S4x2048x2048 .f32) (x3 : FVec Ideal S4x2048 .f32)
    (x4 : FVec Ideal S1024x2048 .f32) (x5 : FVec Ideal S1024 .f32)
    (h : fn (F := Ideal) x0 x1 x2 x3 x4 x5 = (fun _ => 1#1)) :
    (∀ i, ∃ q : ℝ, x0 i = (q : EReal)) ∧ (∀ i, ∃ q : ℝ, x1 i = (q : EReal)) := by
  have e := congrFun h ValueIdx.ix0
  dsimp only [fn, fn_part1] at e
  unfold andi at e
  obtain ⟨⟨⟨⟨⟨e0, e1⟩, _⟩, _⟩, _⟩, _⟩ :
      ((((_ ∧ _) ∧ _) ∧ _) ∧ _) ∧ _ := by
    simpa only [IntOp.andi_eq_one] using e
  exact ⟨fun i => real_of_abs_lt (x0 i) (Host.reduce_andi_all _ _ _ _ _ e0 i),
    fun i => real_of_abs_lt (x1 i) (Host.reduce_andi_all _ _ _ _ _ e1 i)⟩

end Cert.AndAttn.Finite
end
-- ==== Proof.lean ====
/-
  The certificate of a two-token attention followed by a five-layer perceptron, kernel against reference, over the
  extended reals.

  Per batch row, both programs compute the same function of row r of the two token arrays a, b and of the weights
  (Proof/Spec.lean): the scores s(a,a), s(a,b), s(b,b) with s(u,v) = (∑ d, u d · v d)/32; the two-way softmax of
  (s(a,a), s(a,b)) and of (s(a,b), s(b,b)); the two attended tokens p₀₀·a + p₀₁·b and p₁₀·a + p₁₁·b side by side; four
  layers h ↦ max(h·Wᵀ + bias, 0) and a last affine layer.

  The kernel tiles the batch in 32 blocks of 512 rows; what a grid point writes back is block t of that function of the
  arrays the region finds (Proof/KerAttn.lean, KerLayers.lean, KerRow.lean: the body at an index; Proof/KerArray.lean:
  the blocks, their cover, the array after the run). The kernel scales a lane sum by 2⁻⁵, rounds to bf16 between
  layers and contracts the weights in [out, in] layout; the reference divides each entry by 32 before summing, keeps
  f32 and transposes the weights. On the extended reals rounding is the identity and the two contractions are the same
  sums; the ONE law that needs the precondition is (∑ d, (u d / 32) · v d) = (∑ d, u d · v d) · (1/32), which holds
  because every token entry is a real number (Proof/RefRow.lean, Proof/Finite.lean). Nothing else uses finiteness.

  The three frames are the generated frame runs (the reference's is its run with the result dropped); the ideal pass
  rewrote nothing, so the kernel's idealization is its own text and that conjunct is trivial.
-/
import proofs.«144395_j52132313039254_2_alg».proof.Defs
import proofs.«144395_j52132313039254_2_alg».proof.Proof.Gen.Kernel
import proofs.«144395_j52132313039254_2_alg».proof.Proof.Gen.Kernel.Frame
import proofs.«144395_j52132313039254_2_alg».proof.Proof.Gen.KernelIdeal
import proofs.«144395_j52132313039254_2_alg».proof.Proof.Gen.KernelIdeal.Frame
import proofs.«144395_j52132313039254_2_alg».proof.Proof.Gen.KernelIdeal.Value
import proofs.«144395_j52132313039254_2_alg».proof.Proof.Gen.ReferenceIdeal
import proofs.«144395_j52132313039254_2_alg».proof.Proof.Gen.Pre_finite_inputs
import proofs.«144395_j52132313039254_2_alg».proof.Proof.RefRun
import proofs.«144395_j52132313039254_2_alg».proof.Proof.RefRead
import proofs.«144395_j52132313039254_2_alg».proof.Proof.RefArray
import proofs.«144395_j52132313039254_2_alg».proof.Proof.KerArray
import proofs.«144395_j52132313039254_2_alg».proof.Proof.Finite
import Idealize.ShloMosaic.Adequacy
import Idealize.ShloMosaic.Init

noncomputable section

namespace Cert.Proof

open Idealize.ShloMosaic Idealize.ShloMosaic.TcCoe Idealize.SL.Sem Cert.AndAttn

/-- The kernel as printed runs, and leaves its arguments as they were. -/
theorem frame_kernel [Cert.Kernel.Facts] [Cert.Pre_finite_inputs.Facts] : Cert.frame_Kernel :=
  fun m ρ _ => Cert.Kernel.Gen.frame m ρ

/-- So does its reading over the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments as they were: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the result array `Gfull` of the arguments: the kernel by its blocks, the reference index by
    index, the token arrays being real under the precondition. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.AndAttn.Ker.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1⟩ := Cert.AndAttn.Finite.tokens_real _ _ _ _ _ _ (hpre c)
  rw [Cert.ReferenceIdeal.ReadP.val_main_v67_eq, (hagree c).1, (hagree c).2.1, (hagree c).2.2.1, (hagree c).2.2.2.1,
    (hagree c).2.2.2.2.1, (hagree c).2.2.2.2.2]
  exact Cert.AndAttn.Ref.ref_is_G _ _ _ _ _ _ h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
